-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x500000 : Shape := ⟨2, ![2, 500000]⟩
abbrev S500000x32 : Shape := ⟨2, ![500000, 32]⟩
abbrev S50000x128 : Shape := ⟨2, ![50000, 128]⟩
abbrev S32x128 : Shape := ⟨2, ![32, 128]⟩
abbrev S128 : Shape := ⟨1, ![128]⟩
abbrev S128x128 : Shape := ⟨2, ![128, 128]⟩
abbrev S384x128 : Shape := ⟨2, ![384, 128]⟩
abbrev S384 : Shape := ⟨1, ![384]⟩
abbrev S288x128 : Shape := ⟨2, ![288, 128]⟩
abbrev S128x1 : Shape := ⟨2, ![128, 1]⟩
abbrev S1 : Shape := ⟨1, ![1]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S500000x32 : S_.BroadcastsInDim S500000x32 (![] : Fin 0 → Fin S500000x32.rank)
  reducesTo_S500000x32_S_d0_1 : S500000x32.ReducesTo [0, 1] S_
  bcast_S_S50000x128 : S_.BroadcastsInDim S50000x128 (![] : Fin 0 → Fin S50000x128.rank)
  reducesTo_S50000x128_S_d0_1 : S50000x128.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S288x128 : S_.BroadcastsInDim S288x128 (![] : Fin 0 → Fin S288x128.rank)
  reducesTo_S288x128_S_d0_1 : S288x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S1 .f32) (main_v83 : IVec S_ 1) (main_v84 : FVec F S128x1 .f32) (main_cst_32 : FVec F S_ .f32) : IVec S_ 1 :=
  let main_v85 : FVec F S128x1 .f32 := broadcastInDim S128x1 ![] bcast_S_S128x1 main_cst_32
  let main_v86 : IVec S128x1 1 := cmpf .olt main_v84 main_v85
  let main_c_33 : IVec S_ 1 := constantI S_ 1 1#1
  let main_v87 : IVec S_ 1 := (fun x v => Host.reduce IntOp.andi x v reducesTo_S128x1_S_d0_1 h_S_) main_v86 main_c_33
  let main_v88 : IVec S_ 1 := andi main_v83 main_v87
  let main_v89 : FVec F S1 .f32 := Host.absf main_arg19
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg15 : FVec F S384 .f32) (main_arg16 : FVec F S288x128 .f32) (main_arg17 : FVec F S128 .f32) (main_arg18 : FVec F S128x1 .f32) (main_arg19 : FVec F S1 .f32) (main_v63 : IVec S_ 1) (main_v67 : IVec S_ 1) : IVec S_ 1 :=
  let main_v68 : IVec S_ 1 := andi main_v63 main_v67
  let main_v69 : FVec F S384 .f32 := Host.absf main_arg15
  let main_cst_26 : FVec F S_ .f32 := constant S_ .f32 0x7F800000#32
  let main_v70 : FVec F S384 .f32 := broadcastInDim S384 ![] bcast_S_S384 main_cst_26
  let main_v71 : IVec S384 1 := cmpf .olt main_v69 main_v70
  let main_c_27 : IVec S_ 1 := constantI S_ 1 1#1
  let main_v72 : IVec S_ 1 := (fun x v => Host.reduce IntOp.andi x v reducesTo_S384_S_d0 h_S_) main_v71 main_c_27
  let main_v73 : IVec S_ 1 := andi main_v68 main_v72
  let main_v74 : FVec F S288x128 .f32 := Host.absf main_arg16
  let main_cst_28 : FVec F S_ .f32 := constant S_ .f32 0x7F800000#32
  let main_v75 : FVec F S288x128 .f32 := broadcastInDim S288x128 ![] bcast_S_S288x128 main_cst_28
  let main_v76 : IVec S288x128 1 := cmpf .olt main_v74 main_v75
  let main_c_29 : IVec S_ 1 := constantI S_ 1 1#1
  let main_v77 : IVec S_ 1 := (fun x v => Host.reduce IntOp.andi x v reducesTo_S288x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x1 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S384x128 .f32) (main_arg13 : FVec F S384 .f32) (main_arg14 : FVec F S384x128 .f32) (main_arg15 : FVec F S384 .f32) (main_arg16 : FVec F S288x128 .f32) (main_arg17 : FVec F S128 .f32) (main_arg18 : FVec F S128x1 .f32) (main_arg19 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S384x128 .f32 := Host.absf main_arg12
  let main_cst_20 : FVec F S_ .f32 := constant S_ .f32 0x7F800000#32
  let main_v55 : FVec F S384x128 .f32 := broadcastInDim S384x128 ![] bcast_S_S384x128 main_cst_20
  let main_v56 : IVec S384x128 1 := cmpf .olt main_v54 main_v55
  let main_c_21 : IVec S_ 1 := constantI S_ 1 1#1
  let main_v57 : IVec S_ 1 := (fun x v => Host.reduce IntOp.andi x v reducesTo_S384x128_S_d0_1 h_S_) main_v56 main_c_21
  let main_v58 : IVec S_ 1 := andi main_v53 main_v57
  let main_v59 : FVec F S384 .f32 := Host.absf main_arg13
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  let main_v64 : FVec F S384x128 .f32 := Host.absf main_arg14
  let main_cst_24 : FVec F S_ .f32 := constant S_ .f32 0x7F800000#32
  let main_v65 : FVec F S384x128 .f32 := broadcastInDim S384x128 ![] bcast_S_S384x128 main_cst_24
  let main_v66 : IVec S384x128 1 := cmpf .olt main_v64 main_v65
  let main_c_25 : IVec S_ 1 := constantI S_ 1 1#1
  let main_v67 : IVec S_ 1 := (fun x v => Host.reduce IntOp.andi x v reducesTo_S384x128_S_d0_1 h_S_) main_v66 main_c_25
  fn_part4 (F := F) main_arg15 main_arg16 main_arg17 main_arg18 main_arg19 main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S384x128 .f32) (main_arg13 : FVec F S384 .f32) (main_arg14 : FVec F S384x128 .f32) (main_arg15 : FVec F S384 .f32) (main_arg16 : FVec F S288x128 .f32) (main_arg17 : FVec F S128 .f32) (main_arg18 : FVec F S128x1 .f32) (main_arg19 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S384x128 .f32) (main_arg13 : FVec F S384 .f32) (main_arg14 : FVec F S384x128 .f32) (main_arg15 : FVec F S384 .f32) (main_arg16 : FVec F S288x128 .f32) (main_arg17 : FVec F S128 .f32) (main_arg18 : FVec F S128x1 .f32) (main_arg19 : FVec F S1 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S50000x16 .f32) (main_arg1 : IVec S2x500000 32) (main_arg2 : FVec F S500000x32 .f32) (main_arg3 : FVec F S50000x128 .f32) (main_arg4 : FVec F S32x128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S384x128 .f32) (main_arg13 : FVec F S384 .f32) (main_arg14 : FVec F S384x128 .f32) (main_arg15 : FVec F S384 .f32) (main_arg16 : FVec F S288x128 .f32) (main_arg17 : FVec F S128 .f32) (main_arg18 : FVec F S128x1 .f32) (main_arg19 : FVec F S1 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S500000x32 .f32 := Host.absf main_arg2
  let main_cst_0 : FVec F S_ .f32 := constant S_ .f32 0x7F800000#32
  let main_v5 : FVec F S500000x32 .f32 := broadcastInDim S500000x32 ![] bcast_S_S500000x32 main_cst_0
  let main_v6 : IVec S500000x32 1 := cmpf .olt main_v4 main_v5
  let main_c_1 : IVec S_ 1 := constantI S_ 1 1#1
  let main_v7 : IVec S_ 1 := (fun x v => Host.reduce IntOp.andi x v reducesTo_S500000x32_S_d0_1 h_S_) main_v6 main_c_1
  let main_v8 : IVec S_ 1 := andi main_v3 main_v7
  let main_v9 : FVec F S50000x128 .f32 := Host.absf main_arg3
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S32x128 .f32 := Host.absf main_arg4
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S50000x16 : Shape := ⟨2, ![50000, 16]⟩
abbrev S2x500000 : Shape := ⟨2, ![2, 500000]⟩
abbrev S500000x32 : Shape := ⟨2, ![500000, 32]⟩
abbrev S50000x128 : Shape := ⟨2, ![50000, 128]⟩
abbrev S32x128 : Shape := ⟨2, ![32, 128]⟩
abbrev S128 : Shape := ⟨1, ![128]⟩
abbrev S128x128 : Shape := ⟨2, ![128, 128]⟩
abbrev S384x128 : Shape := ⟨2, ![384, 128]⟩
abbrev S384 : Shape := ⟨1, ![384]⟩
abbrev S288x128 : Shape := ⟨2, ![288, 128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S500000x128 : Shape := ⟨2, ![500000, 128]⟩
abbrev S5000x32 : Shape := ⟨2, ![5000, 32]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩
abbrev S_ : Shape := ⟨0, ![]⟩
abbrev S500000x1 : Shape := ⟨2, ![500000, 1]⟩
abbrev S50000 : Shape := ⟨1, ![50000]⟩
abbrev S50000x1 : Shape := ⟨2, ![50000, 1]⟩
abbrev S128x384 : Shape := ⟨2, ![128, 384]⟩
abbrev S5000x384 : Shape := ⟨2, ![5000, 384]⟩
abbrev S1x384 : Shape := ⟨2, ![1, 384]⟩
abbrev S1x1 : Shape := ⟨2, ![1, 1]⟩

abbrev nBuf : Space → Nat
  | .hbm => 66
  | .vmem => 36
  | .smem => 0
  | _ => 0

abbrev bufTy : (tb : Table) → Fin (tcTables nBuf tb) → BufTy
  | .hbm, ⟨0, _⟩ => ⟨S50000x16, .f32⟩
  | .hbm, ⟨1, _⟩ => ⟨S2x500000, .i32⟩
  | .hbm, ⟨2, _⟩ => ⟨S500000x32, .f32⟩
  | .hbm, ⟨3, _⟩ => ⟨S50000x128, .f32⟩
  | .hbm, ⟨4, _⟩ => ⟨S32x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S384x128, .f32⟩
  | .hbm, ⟨13, _⟩ => ⟨S384, .f32⟩
  | .hbm, ⟨14, _⟩ => ⟨S384x128, .f32⟩
  | .hbm, ⟨15, _⟩ => ⟨S384, .f32⟩
  | .hbm, ⟨16, _⟩ => ⟨S288x128, .f32⟩
  | .hbm, ⟨17, _⟩ => ⟨S128, .f32⟩
  | .hbm, ⟨18, _⟩ => ⟨S128x1, .f32⟩
  | .hbm, ⟨19, _⟩ => ⟨S1, .f32⟩
  | .hbm, ⟨20, _⟩ => ⟨S1x500000, .i32⟩
  | .hbm, ⟨21, _⟩ => ⟨S500000, .i32⟩
  | .hbm, ⟨22, _⟩ => ⟨S1x500000, .i32⟩
  | .hbm, ⟨23, _⟩ => ⟨S500000, .i32⟩
  | .hbm, ⟨24, _⟩ => ⟨S500000x128, .f32⟩
  | .hbm, ⟨25, _⟩ => ⟨S_, .f32⟩
  | .hbm, ⟨26, _⟩ => ⟨S50000x128, .f32⟩
  | .hbm, ⟨27, _⟩ => ⟨S500000x1, .i32⟩
  | .hbm, ⟨28, _⟩ => ⟨S50000x128, .f32⟩
  | .hbm, ⟨29, _⟩ => ⟨S_, .f32⟩
  | .hbm, ⟨30, _⟩ => ⟨S500000, .f32⟩
  | .hbm, ⟨31, _⟩ => ⟨S_, .f32⟩
  | .hbm, ⟨32, _⟩ => ⟨S50000, .f32⟩
  | .hbm, ⟨33, _⟩ => ⟨S500000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S128x384, .f32⟩
  | .hbm, ⟨42, _⟩ => ⟨S128x384, .f32⟩
  | .hbm, ⟨43, _⟩ => ⟨S50000x128, .f32⟩
  | .hbm, ⟨44, _⟩ => ⟨S_, .i32⟩
  | .hbm, ⟨45, _⟩ => ⟨S500000, .i32⟩
  | .hbm, ⟨46, _⟩ => ⟨S500000, .i1⟩
  | .hbm, ⟨47, _⟩ => ⟨S_, .i32⟩
  | .hbm, ⟨48, _⟩ => ⟨S500000, .i32⟩
  | .hbm, ⟨49, _⟩ => ⟨S500000, .i32⟩
  | .hbm, ⟨50, _⟩ => ⟨S500000, .i32⟩
  | .hbm, ⟨51, _⟩ => ⟨S500000x1, .i32⟩
  | .hbm, ⟨52, _⟩ => ⟨S500000x128, .f32⟩
  | .hbm, ⟨53, _⟩ => ⟨S_, .i32⟩
  | .hbm, ⟨54, _⟩ => ⟨S500000, .i32⟩
  | .hbm, ⟨55, _⟩ => ⟨S500000, .i1⟩
  | .hbm, ⟨56, _⟩ => ⟨S_, .i32⟩
  | .hbm, ⟨57, _⟩ => ⟨S500000, .i32⟩
  | .hbm, ⟨58, _⟩ => ⟨S500000, .i32⟩
  | .hbm, ⟨59, _⟩ => ⟨S500000, .i32⟩
  | .hbm, ⟨60, _⟩ => ⟨S500000x1, .i32⟩
  | .hbm, ⟨61, _⟩ => ⟨S500000x128, .f32⟩
  | .hbm, ⟨62, _⟩ => ⟨S128x128, .f32⟩
  | .hbm, ⟨63, _⟩ => ⟨S128x128, .f32⟩
  | .hbm, ⟨64, _⟩ => ⟨S32x128, .f32⟩
  | .hbm, ⟨65, _⟩ => ⟨S500000x1, .f32⟩
  | .local _ .vmem, ⟨0, _⟩ => ⟨S5000x32, .f32⟩
  | .local _ .vmem, ⟨1, _⟩ => ⟨S5000x32, .f32⟩
  | .local _ .vmem, ⟨2, _⟩ => ⟨S32x128, .f32⟩
  | .local _ .vmem, ⟨3, _⟩ => ⟨S128, .f32⟩
  | .local _ .vmem, ⟨4, _⟩ => ⟨S128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x384, .f32⟩
  | .local _ .vmem, ⟨17, _⟩ => ⟨S384, .f32⟩
  | .local _ .vmem, ⟨18, _⟩ => ⟨S128x384, .f32⟩
  | .local _ .vmem, ⟨19, _⟩ => ⟨S384, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x32, .f32⟩
  | .local _ .vmem, ⟨27, _⟩ => ⟨S5000x32, .f32⟩
  | .local _ .vmem, ⟨28, _⟩ => ⟨S128x128, .f32⟩
  | .local _ .vmem, ⟨29, _⟩ => ⟨S128x128, .f32⟩
  | .local _ .vmem, ⟨30, _⟩ => ⟨S32x128, .f32⟩
  | .local _ .vmem, ⟨31, _⟩ => ⟨S128, .f32⟩
  | .local _ .vmem, ⟨32, _⟩ => ⟨S128x1, .f32⟩
  | .local _ .vmem, ⟨33, _⟩ => ⟨S1, .f32⟩
  | .local _ .vmem, ⟨34, _⟩ => ⟨S5000x1, .f32⟩
  | .local _ .vmem, ⟨35, _⟩ => ⟨S5000x1, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_2 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c : Ref sig .tc := ⟨.hbm, 44, rfl⟩
abbrev main_v20 : Ref sig .tc := ⟨.hbm, 45, rfl⟩
abbrev main_v21 : Ref sig .tc := ⟨.hbm, 46, rfl⟩
abbrev main_c_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_4 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  inb_S5000x32_S5000x32_0_0 : ∀ a, (![0, 0] : Fin 2 → Nat) a + S5000x32.size a ≤ S5000x32.size a
  h_S5000x32 : 0 < S5000x32.numel
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S384x128_S128x384_1_0 : S384x128.Transposes [1, 0] S128x384
  shapeCasts_S5000x128_S5000x128 : S5000x128.ShapeCasts S5000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S1x384 : S384.ShapeCasts S1x384
  broadcasts_S1x384_S5000x384 : S1x384.Broadcasts S5000x384
  slices_S5000x384_o0_0_S5000x128 : S5000x384.Slices ![0, 0] S5000x128
  slices_S5000x384_o0_128_S5000x128 : S5000x384.Slices ![0, 128] S5000x128
  slices_S5000x384_o0_256_S5000x128 : S5000x384.Slices ![0, 256] S5000x128
  slices_S288x128_S128x128_0_0 : S288x128.Slices ![0, 0] S128x128
  slices_S288x128_S128x128_128_0 : S288x128.Slices ![128, 0] S128x128
  slices_S288x128_S32x128_256_0 : S288x128.Slices ![256, 0] S32x128
  shapeCasts_S128x128_S128x128 : S128x128.ShapeCasts S128x128
  shapeCasts_S32x128_S32x128 : S32x128.ShapeCasts S32x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S5000x32_S32x128_S5000x128_1_0_0_1_n_n_wf : DotDims.WF S5000x32 S32x128 S5000x128 [1] [0] [0] [1] [] []
  dot_S5000x128_S128x128_S5000x128_1_0_0_1_n_n_wf : DotDims.WF S5000x128 S128x128 S5000x128 [1] [0] [0] [1] [] []
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S5000x128_S128x384_S5000x384_1_0_0_1_n_n_wf : DotDims.WF S5000x128 S128x384 S5000x384 [1] [0] [0] [1] [] []
  gather_S50000x128_S500000x1_S500000x128_1_0_n_n_0_1_1128_wf : GatherDims.WF S50000x128 S500000x1 S500000x128 [1] [0] [] [0] [] 1 ![1, 128]
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S500000x32.size a
  hwx0_0 : ∀ i : grid0.Coords, EltTy.bits .f32 = 32 ∨ (Rect.block (s := S500000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S500000x128.size a
  hwx0_9 : ∀ i : grid0.Coords, EltTy.bits .f32 = 32 ∨ (Rect.block (s := S500000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384.size a ≤ S384.size a
  hwx1_3 : ∀ i : grid1.Coords, EltTy.bits .f32 = 32 ∨ (Rect.block (s := S384) S384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x384.size a ≤ S128x384.size a
  hwx1_4 : ∀ i : grid1.Coords, EltTy.bits .f32 = 32 ∨ (Rect.block (s := S128x384) S128x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S384.size a ≤ S384.size a
  hwx1_5 : ∀ i : grid1.Coords, EltTy.bits .f32 = 32 ∨ (Rect.block (s := S384) S384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .f32 = 32 ∨ (Rect.block (s := S500000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S500000x32.size a
  hwx2_2 : ∀ i : grid2.Coords, EltTy.bits .f32 = 32 ∨ (Rect.block (s := S500000x32) S5000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x128.size a ≤ S32x128.size a
  hwx2_5 : ∀ i : grid2.Coords, EltTy.bits .f32 = 32 ∨ (Rect.block (s := S32x128) S32x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x1.size a ≤ S128x1.size a
  hwx2_7 : ∀ i : grid2.Coords, EltTy.bits .f32 = 32 ∨ (Rect.block (s := S128x1) S128x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1.size a ≤ S1.size a
  hwx2_8 : ∀ i : grid2.Coords, EltTy.bits .f32 = 32 ∨ (Rect.block (s := S1) S1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x1.size a ≤ S500000x1.size a
  hwx2_9 : ∀ i : grid2.Coords, EltTy.bits .f32 = 32 ∨ (Rect.block (s := S500000x1) S5000x1.size (cc2_transform_9 i) (hinb2_9 i)).WholeWords (EltTy.packing .f32)

variable [Facts₀]

def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg2) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S128x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S5000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S32x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg17) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg18) S128x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg19) S1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v37) S5000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x16 : Shape := ⟨2, ![50000, 16]⟩
abbrev S2x500000 : Shape := ⟨2, ![2, 500000]⟩
abbrev S500000x32 : Shape := ⟨2, ![500000, 32]⟩
abbrev S50000x128 : Shape := ⟨2, ![50000, 128]⟩
abbrev S32x128 : Shape := ⟨2, ![32, 128]⟩
abbrev S128 : Shape := ⟨1, ![128]⟩
abbrev S128x128 : Shape := ⟨2, ![128, 128]⟩
abbrev S384x128 : Shape := ⟨2, ![384, 128]⟩
abbrev S384 : Shape := ⟨1, ![384]⟩
abbrev S288x128 : Shape := ⟨2, ![288, 128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S500000x128 : Shape := ⟨2, ![500000, 128]⟩
abbrev S1x128 : Shape := ⟨2, ![1, 128]⟩
abbrev S_ : Shape := ⟨0, ![]⟩
abbrev S500000x1 : Shape := ⟨2, ![500000, 1]⟩
abbrev S50000 : Shape := ⟨1, ![50000]⟩
abbrev S50000x1 : Shape := ⟨2, ![50000, 1]⟩
abbrev S128x384 : Shape := ⟨2, ![128, 384]⟩
abbrev S50000x384 : Shape := ⟨2, ![50000, 384]⟩
abbrev S1x384 : Shape := ⟨2, ![1, 384]⟩
abbrev S500000x288 : Shape := ⟨2, ![500000, 288]⟩
abbrev S1x1 : Shape := ⟨2, ![1, 1]⟩

abbrev nBuf : Space → Nat
  | .hbm => 185
  | .vmem => 0
  | .smem => 0
  | _ => 0

abbrev hbmTy0_0 (i : Nat) : BufTy := match i % 128 with
  | 0 => ⟨S50000x16, .f32⟩
  | 1 => ⟨S2x500000, .i32⟩
  | 2 => ⟨S500000x32, .f32⟩
  | 3 => ⟨S50000x128, .f32⟩
  | 4 => ⟨S32x128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S384x128, .f32⟩
  | 13 => ⟨S384, .f32⟩
  | 14 => ⟨S384x128, .f32⟩
  | 15 => ⟨S384, .f32⟩
  | 16 => ⟨S288x128, .f32⟩
  | 17 => ⟨S128, .f32⟩
  | 18 => ⟨S128x1, .f32⟩
  | 19 => ⟨S1, .f32⟩
  | 20 => ⟨S1x500000, .i32⟩
  | 21 => ⟨S500000, .i32⟩
  | 22 => ⟨S1x500000, .i32⟩
  | 23 => ⟨S500000, .i32⟩
  | 24 => ⟨S500000x128, .f32⟩
  | 25 => ⟨S1x128, .f32⟩
  | 26 => ⟨S500000x128, .f32⟩
  | 27 => ⟨S500000x128, .f32⟩
  | 28 => ⟨S_, .f32⟩
  | 29 => ⟨S500000, .f32⟩
  | 30 => ⟨S500000x1, .f32⟩
  | 31 => ⟨S_, .f32⟩
  | 32 => ⟨S500000x1, .f32⟩
  | 33 => ⟨S500000x1, .f32⟩
  | 34 => ⟨S500000x128, .f32⟩
  | 35 => ⟨S500000x128, .f32⟩
  | 36 => ⟨S500000x128, .f32⟩
  | 37 => ⟨S_, .f32⟩
  | 38 => ⟨S500000, .f32⟩
  | 39 => ⟨S500000x1, .f32⟩
  | 40 => ⟨S_, .f32⟩
  | 41 => ⟨S500000x1, .f32⟩
  | 42 => ⟨S500000x1, .f32⟩
  | 43 => ⟨S500000x128, .f32⟩
  | 44 => ⟨S500000x128, .f32⟩
  | 45 => ⟨S_, .f32⟩
  | 46 => ⟨S500000x1, .f32⟩
  | 47 => ⟨S500000x1, .f32⟩
  | 48 => ⟨S500000x1, .f32⟩
  | 49 => ⟨S500000x128, .f32⟩
  | 50 => ⟨S500000x128, .f32⟩
  | 51 => ⟨S1x128, .f32⟩
  | 52 => ⟨S500000x128, .f32⟩
  | 53 => ⟨S500000x128, .f32⟩
  | 54 => ⟨S1x128, .f32⟩
  | 55 => ⟨S500000x128, .f32⟩
  | 56 => ⟨S500000x128, .f32⟩
  | 57 => ⟨S_, .f32⟩
  | 58 => ⟨S500000x128, .f32⟩
  | 59 => ⟨S500000x128, .f32⟩
  | 60 => ⟨S500000x128, .f32⟩
  | 61 => ⟨S1x128, .f32⟩
  | 62 => ⟨S500000x128, .f32⟩
  | 63 => ⟨S500000x128, .f32⟩
  | 64 => ⟨S_, .f32⟩
  | 65 => ⟨S500000, .f32⟩
  | 66 => ⟨S500000x1, .f32⟩
  | 67 => ⟨S_, .f32⟩
  | 68 => ⟨S500000x1, .f32⟩
  | 69 => ⟨S500000x1, .f32⟩
  | 70 => ⟨S500000x128, .f32⟩
  | 71 => ⟨S500000x128, .f32⟩
  | 72 => ⟨S500000x128, .f32⟩
  | 73 => ⟨S_, .f32⟩
  | 74 => ⟨S500000, .f32⟩
  | 75 => ⟨S500000x1, .f32⟩
  | 76 => ⟨S_, .f32⟩
  | 77 => ⟨S500000x1, .f32⟩
  | 78 => ⟨S500000x1, .f32⟩
  | 79 => ⟨S500000x128, .f32⟩
  | 80 => ⟨S500000x128, .f32⟩
  | 81 => ⟨S_, .f32⟩
  | 82 => ⟨S500000x1, .f32⟩
  | 83 => ⟨S500000x1, .f32⟩
  | 84 => ⟨S500000x1, .f32⟩
  | 85 => ⟨S500000x128, .f32⟩
  | 86 => ⟨S500000x128, .f32⟩
  | 87 => ⟨S1x128, .f32⟩
  | 88 => ⟨S500000x128, .f32⟩
  | 89 => ⟨S500000x128, .f32⟩
  | 90 => ⟨S1x128, .f32⟩
  | 91 => ⟨S500000x128, .f32⟩
  | 92 => ⟨S500000x128, .f32⟩
  | 93 => ⟨S_, .f32⟩
  | 94 => ⟨S500000x128, .f32⟩
  | 95 => ⟨S500000x128, .f32⟩
  | 96 => ⟨S_, .f32⟩
  | 97 => ⟨S50000x128, .f32⟩
  | 98 => ⟨S500000x1, .i32⟩
  | 99 => ⟨S50000x128, .f32⟩
  | 100 => ⟨S_, .f32⟩
  | 101 => ⟨S500000, .f32⟩
  | 102 => ⟨S_, .f32⟩
  | 103 => ⟨S50000, .f32⟩
  | 104 => ⟨S500000x1, .i32⟩
  | 105 => ⟨S50000, .f32⟩
  | 106 => ⟨S_, .f32⟩
  | 107 => ⟨S50000, .f32⟩
  | 108 => ⟨S50000, .f32⟩
  | 109 => ⟨S50000x1, .f32⟩
  | 110 => ⟨S50000x128, .f32⟩
  | 111 => ⟨S50000x128, .f32⟩
  | 112 => ⟨S128x384, .f32⟩
  | 113 => ⟨S50000x384, .f32⟩
  | 114 => ⟨S1x384, .f32⟩
  | 115 => ⟨S50000x384, .f32⟩
  | 116 => ⟨S50000x384, .f32⟩
  | 117 => ⟨S128x384, .f32⟩
  | 118 => ⟨S50000x384, .f32⟩
  | 119 => ⟨S1x384, .f32⟩
  | 120 => ⟨S50000x384, .f32⟩
  | 121 => ⟨S50000x384, .f32⟩
  | 122 => ⟨S50000x128, .f32⟩
  | 123 => ⟨S50000x128, .f32⟩
  | 124 => ⟨S50000x128, .f32⟩
  | 125 => ⟨S50000x128, .f32⟩
  | 126 => ⟨S50000x128, .f32⟩
  | 127 => ⟨S50000x128, .f32⟩
  | _ => ⟨S50000x16, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S50000x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S50000x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S50000x128, .f32⟩
  | 25 => ⟨S50000x128, .f32⟩
  | 26 => ⟨S50000x128, .f32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x128, .f32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S500000x1, .i32⟩
  | 44 => ⟨S500000x128, .f32⟩
  | 45 => ⟨S500000x288, .f32⟩
  | 46 => ⟨S500000x128, .f32⟩
  | 47 => ⟨S1x128, .f32⟩
  | 48 => ⟨S500000x128, .f32⟩
  | 49 => ⟨S500000x128, .f32⟩
  | 50 => ⟨S_, .f32⟩
  | 51 => ⟨S500000x128, .f32⟩
  | 52 => ⟨S500000x128, .f32⟩
  | 53 => ⟨S500000x1, .f32⟩
  | 54 => ⟨S1x1, .f32⟩
  | 55 => ⟨S500000x1, .f32⟩
  | 56 => ⟨S500000x1, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_1 : Ref sig .tc := ⟨.hbm, 37, rfl⟩
abbrev main_v15 : Ref sig .tc := ⟨.hbm, 38, rfl⟩
abbrev main_v16 : Ref sig .tc := ⟨.hbm, 39, rfl⟩
abbrev main_cst_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call0_cst : Ref sig .tc := ⟨.hbm, 57, rfl⟩
abbrev main_call0_v0 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_4 : Ref sig .tc := ⟨.hbm, 64, rfl⟩
abbrev main_v37 : Ref sig .tc := ⟨.hbm, 65, rfl⟩
abbrev main_v38 : Ref sig .tc := ⟨.hbm, 66, rfl⟩
abbrev main_cst_5 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_6 : Ref sig .tc := ⟨.hbm, 73, rfl⟩
abbrev main_v44 : Ref sig .tc := ⟨.hbm, 74, rfl⟩
abbrev main_v45 : Ref sig .tc := ⟨.hbm, 75, rfl⟩
abbrev main_cst_7 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_8 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_call1_cst : Ref sig .tc := ⟨.hbm, 93, rfl⟩
abbrev main_call1_v0 : Ref sig .tc := ⟨.hbm, 94, rfl⟩
abbrev main_v61 : Ref sig .tc := ⟨.hbm, 95, rfl⟩
abbrev main_cst_9 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_10 : Ref sig .tc := ⟨.hbm, 100, rfl⟩
abbrev main_v65 : Ref sig .tc := ⟨.hbm, 101, rfl⟩
abbrev main_cst_11 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_12 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_13 : Ref sig .tc := ⟨.hbm, 131, rfl⟩
abbrev main_v93 : Ref sig .tc := ⟨.hbm, 132, rfl⟩
abbrev main_v94 : Ref sig .tc := ⟨.hbm, 133, rfl⟩
abbrev main_cst_14 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_15 : Ref sig .tc := ⟨.hbm, 140, rfl⟩
abbrev main_v100 : Ref sig .tc := ⟨.hbm, 141, rfl⟩
abbrev main_v101 : Ref sig .tc := ⟨.hbm, 142, rfl⟩
abbrev main_cst_16 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_17 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_c : Ref sig .tc := ⟨.hbm, 155, rfl⟩
abbrev main_v112 : Ref sig .tc := ⟨.hbm, 156, rfl⟩
abbrev main_v113 : Ref sig .tc := ⟨.hbm, 157, rfl⟩
abbrev main_c_18 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_c_19 : Ref sig .tc := ⟨.hbm, 164, rfl⟩
abbrev main_v119 : Ref sig .tc := ⟨.hbm, 165, rfl⟩
abbrev main_v120 : Ref sig .tc := ⟨.hbm, 166, rfl⟩
abbrev main_c_20 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_call2_cst : Ref sig .tc := ⟨.hbm, 178, rfl⟩
abbrev main_call2_v0 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  reducesTo_S500000x128_S500000_d1 : S500000x128.ReducesTo [1] S500000
  h_S_ : 0 < S_.numel
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  bcast_S_S500000x128 : S_.BroadcastsInDim S500000x128 (![] : Fin 0 → Fin S500000x128.rank)
  bcast_S_S50000x128 : S_.BroadcastsInDim S50000x128 (![] : Fin 0 → Fin S50000x128.rank)
  bcast_S_S500000 : S_.BroadcastsInDim S500000 (![] : Fin 0 → Fin S500000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S384x128_S128x384_1_0 : S384x128.Transposes [1, 0] S128x384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  concatenates_S500000x128_S500000x128_S500000x32_S500000x288_d1 : Shape.Concatenates [S500000x128, S500000x128, S500000x32] S500000x288 1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  dot_S500000x32_S32x128_S500000x128_1_0_0_1_n_n_wf : DotDims.WF S500000x32 S32x128 S500000x128 [1] [0] [0] [1] [] []
  dot_S500000x128_S128x128_S500000x128_1_0_0_1_n_n_wf : DotDims.WF S500000x128 S128x128 S500000x128 [1] [0] [0] [1] [] []
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x384_S50000x384_1_0_0_1_n_n_wf : DotDims.WF S50000x128 S128x384 S50000x384 [1] [0] [0] [1] [] []
  gather_S50000x128_S500000x1_S500000x128_1_0_n_n_0_1_1128_wf : GatherDims.WF S50000x128 S500000x1 S500000x128 [1] [0] [] [0] [] 1 ![1, 128]
  dot_S500000x288_S288x128_S500000x128_1_0_0_1_n_n_wf : DotDims.WF S500000x288 S288x128 S500000x128 [1] [0] [0] [1] [] []
  dot_S500000x128_S128x1_S500000x1_1_0_0_1_n_n_wf : DotDims.WF S500000x128 S128x1 S500000x1 [1] [0] [0] [1] [] []

variable [Facts₀]

def dot_S500000x32_S32x128_S500000x128_1_0_0_1_n_n : DotDims S500000x32 S32x128 S500000x128 where
  lhsContracting := [1]
  rhsContracting := [0]
  lhsNonContracting := [0]
  rhsNonContracting := [1]
  lhsBatch := []
  rhsBatch := []
  wf := dot_S500000x32_S32x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x288_S288x128_S500000x128_1_0_0_1_n_n : DotDims S500000x288 S288x128 S500000x128 where
  lhsContracting := [1]
  rhsContracting := [0]
  lhsNonContracting := [0]
  rhsNonContracting := [1]
  lhsBatch := []
  rhsBatch := []
  wf := dot_S500000x288_S288x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.RunFinal.lean ====
/-
  The kernel program's run, with the result named.

  The program is three launches among stretches of host operations. Running it from any memory ends, on every core, with
  every buffer that outlives a launch holding what the last boundary's contents say: the fold, through the three launches
  and the three stretches, of the launch memory. This module states the run with that whole final valuation in its
  post-condition, so that a result buffer can be read off it: the launch over the program's six segments, whose last
  step reads every held buffer against the final state.
-/
import proofs.«123659_j53171695124547_2_alg».proof.Proof.Gen.KernelIdeal.Frame

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and on every core every buffer that outlives a
    launch ends at the last boundary's contents. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.Final

end
-- ==== Proof.Consts.lean ====
/-
  The three float constants the layer normalisation spells, as extended reals: the row length 128, the zero the
  sums start from, and the small positive number added to the variance. Only the sign of the last one matters.
-/
import Idealize.ShloMosaic.PureOps.Ideal

noncomputable section

namespace Cert.Consts

open Idealize.ShloMosaic

/-- The pattern of `0.0` denotes zero. -/
theorem ofBits_zero : Ideal.ofBits .f32 0x00000000#32 = 0 := by
  simp [Ideal.ofBits, Ideal.ieee]

/-- The pattern of `128.0` denotes the real number 128. -/
theorem ofBits_128 : Ideal.ofBits .f32 0x43000000#32 = ((128 : ℝ) : EReal) := by
  simp [Ideal.ofBits, Ideal.ieee, -EReal.coe_mul]; norm_num

/-- The pattern of `1.0` denotes one. -/
theorem ofBits_one : Ideal.ofBits .f32 0x3F800000#32 = 1 := by
  simp [Ideal.ofBits, Ideal.ieee, -EReal.coe_mul]; norm_num

/-- The number added to the variance is a positive real. -/
theorem ofBits_eps : ∃ r : ℝ, 0 < r ∧ Ideal.ofBits .f32 0x3727C5AC#32 = (r : EReal) := by
  refine ⟨_, ?_, by simp [Ideal.ofBits, Ideal.ieee, -EReal.coe_mul]; rfl⟩
  positivity

end Cert.Consts

end
-- ==== Proof.Spec.lean ====
/-
  The mathematics of one row.

  Every stage of the network acts on the rows of its operands independently: an edge's encoding depends on that edge's
  attribute row only, a node's new state on that node's aggregate and previous state only, an edge's score on its three
  feature rows only. This module states each stage as a function of one row (and of the weights), over the extended
  reals, and proves the two laws by which the two programs' spellings of these functions agree:

  * dividing by a square root is multiplying by the reciprocal square root, for a positive radicand (a positive real or
    +∞), and the radicand of a layer normalisation — a mean of squares plus a positive number — is positive whatever the
    row holds, because a square of an extended real is never negative;
  * a sum over 288 = 128 + 128 + 32 terms is the sum of the three partial sums.
-/
import Mathlib.Algebra.BigOperators.Fin
import proofs.«123659_j53171695124547_2_alg».proof.Proof.Consts

open scoped BigOperators

noncomputable section

namespace Cert.Spec

open Idealize.ShloMosaic

/-- The row length, as the float constant the programs divide by. -/
abbrev c128 : EReal := Ideal.ofBits .f32 0x43000000#32
/-- The positive number added to the variance. -/
abbrev eps : EReal := Ideal.ofBits .f32 0x3727C5AC#32
/-- The zero a rectifier compares with. -/
abbrev z0 : EReal := Ideal.ofBits .f32 0x00000000#32
/-- The one of the gates. -/
abbrev one : EReal := Ideal.ofBits .f32 0x3F800000#32

/-- The mean of a row of 128 entries. -/
def mean (h : Fin 128 → EReal) : EReal := Ideal.div (∑ k, h k) c128

/-- The variance of a row about its mean, plus the small positive number: the radicand of the normalisation. -/
def radicand (h : Fin 128 → EReal) : EReal := Ideal.div (∑ k, (h k - mean h) * (h k - mean h)) c128 + eps

/-- Layer normalisation of a row with gain `g` and offset `b`, then the rectifier: the centred entry times the
    reciprocal square root of the radicand, scaled, shifted, and cut at zero. -/
def lnRelu (h g b : Fin 128 → EReal) (j : Fin 128) : EReal :=
  max ((h j - mean h) * Ideal.rsqrt (radicand h) * g j + b j) z0

/-- The same with the quotient by the square root in place of the product with its reciprocal. -/
def lnReluDiv (h g b : Fin 128 → EReal) (j : Fin 128) : EReal :=
  max (Ideal.div (h j - mean h) (Ideal.sqrt (radicand h)) * g j + b j) z0

/-! ## Quotient by a root and product with the reciprocal root -/

/-- The square of an extended real is not negative (the two infinities square to +∞). -/
theorem mul_self_nonneg (x : EReal) : 0 ≤ x * x := by
  induction x using EReal.rec with
  | bot => rw [EReal.bot_mul_bot]; exact le_top
  | top => rw [EReal.top_mul_top]; exact le_top
  | coe r => exact_mod_cast _root_.mul_self_nonneg r

/-- A quotient of a non-negative extended real by 128 is not negative. -/
theorem div_c128_nonneg {s : EReal} (hs : 0 ≤ s) : 0 ≤ Ideal.div s c128 := by
  show 0 ≤ Ideal.div s (Ideal.ofBits .f32 0x43000000#32)
  rw [Cert.Consts.ofBits_128, Ideal.div_coe (by norm_num : (128 : ℝ) ≠ 0)]
  induction s using EReal.rec with
  | bot => exact absurd hs (by simp)
  | top => rw [EReal.top_mul_of_pos (by exact_mod_cast (by norm_num : (0 : ℝ) < 1 / 128))]; exact le_top
  | coe r =>
    have hr : 0 ≤ r := by exact_mod_cast hs
    rw [← EReal.coe_mul]
    exact_mod_cast mul_nonneg hr (by norm_num)

/-- The radicand of a layer normalisation is positive, whatever the row holds. -/
theorem radicand_pos (h : Fin 128 → EReal) : 0 < radicand h := by
  obtain ⟨r, hr, he⟩ := Cert.Consts.ofBits_eps
  have hv : 0 ≤ Ideal.div (∑ k, (h k - mean h) * (h k - mean h)) c128 :=
    div_c128_nonneg (Finset.sum_nonneg fun k _ => mul_self_nonneg _)
  have hpos : (0 : EReal) < eps := by
    show (0 : EReal) < Ideal.ofBits .f32 0x3727C5AC#32
    rw [he]; exact_mod_cast hr
  exact lt_of_lt_of_le hpos (le_add_of_nonneg_left hv)

/-- For a positive radicand, the quotient by its square root is the product with its reciprocal square root. -/
theorem div_sqrt_eq_mul_rsqrt (x v : EReal) (hv : 0 < v) : Ideal.div x (Ideal.sqrt v) = x * Ideal.rsqrt v := by
  induction v using EReal.rec with
  | bot => exact absurd hv (by simp)
  | top =>
    rw [Ideal.sqrt_top, Ideal.rsqrt_top]
    unfold Ideal.div
    rw [if_neg (by simp), EReal.inv_top]
  | coe r =>
    have hr : 0 < r := by exact_mod_cast hv
    have hs : Real.sqrt r ≠ 0 := (Real.sqrt_pos.mpr hr).ne'
    rw [Ideal.sqrt_coe, Ideal.rsqrt_coe, if_neg (not_lt.mpr hr.le), if_neg (not_lt.mpr hr.le), if_neg hr.ne']
    unfold Ideal.div
    rw [if_neg (by exact_mod_cast hs), EReal.coe_inv]

/-- The two spellings of the normalised, rectified row agree. -/
theorem lnReluDiv_eq (h g b : Fin 128 → EReal) : lnReluDiv h g b = lnRelu h g b := by
  funext j
  unfold lnReluDiv lnRelu
  rw [div_sqrt_eq_mul_rsqrt _ _ (radicand_pos h)]

/-! ## A sum over 288 terms in three parts -/

/-- A sum over 288 indices is the sum over the first 128, the next 128 and the last 32. -/
theorem sum_288 {M : Type*} [AddCommMonoid M] (f : Fin 288 → M) :
    ∑ k : Fin 288, f k
      = (∑ k : Fin 128, f ⟨k.val, by omega⟩ + ∑ k : Fin 128, f ⟨128 + k.val, by omega⟩) + ∑ k : Fin 32, f ⟨256 + k.val, by omega⟩ := by
  have e : ∑ k : Fin 288, f k = ∑ k : Fin (128 + 128 + 32), f ⟨k.val, by omega⟩ := rfl
  rw [e, Fin.sum_univ_add, Fin.sum_univ_add]
  rfl

/-! ## The three stages, one row each -/

/-- One edge's encoding from its attribute row `x`: two rounds of "affine map, normalise, rectify". -/
def encRow (x : Fin 32 → EReal) (W1 : Fin 32 → Fin 128 → EReal) (b1 g1 be1 : Fin 128 → EReal)
    (W2 : Fin 128 → Fin 128 → EReal) (b2 g2 be2 : Fin 128 → EReal) : Fin 128 → EReal :=
  lnRelu (fun j => (∑ k, lnRelu (fun j' => (∑ k', x k' * W1 k' j') + b1 j') g1 be1 k * W2 k j) + b2 j) g2 be2

/-- One node's new state from its aggregate row `a` and previous state `hp`: the three gates read the three thirds of the
    two affine maps' 384 columns. -/
def gruRow (a hp : Fin 128 → EReal) (Wi : Fin 128 → Fin 384 → EReal) (bi : Fin 384 → EReal)
    (Wh : Fin 128 → Fin 384 → EReal) (bh : Fin 384 → EReal) (j : Fin 128) : EReal :=
  let gx : Fin 384 → EReal := fun c => (∑ k, a k * Wi k c) + bi c
  let gh : Fin 384 → EReal := fun c => (∑ k, hp k * Wh k c) + bh c
  let r := Ideal.logistic (gx ⟨j.val, by omega⟩ + gh ⟨j.val, by omega⟩)
  let z := Ideal.logistic (gx ⟨128 + j.val, by omega⟩ + gh ⟨128 + j.val, by omega⟩)
  let n := Ideal.tanh (gx ⟨256 + j.val, by omega⟩ + r * gh ⟨256 + j.val, by omega⟩)
  (one - z) * n + z * hp j

/-- One edge's score from its source-state row `s`, destination-state row `d` and attribute row `x`: the hidden layer's 288
    inputs enter as three partial products. -/
def clsRow (s d : Fin 128 → EReal) (x : Fin 32 → EReal) (Ws Wd : Fin 128 → Fin 128 → EReal) (We : Fin 32 → Fin 128 → EReal)
    (bc1 : Fin 128 → EReal) (w2 : Fin 128 → EReal) (bc2 : EReal) : EReal :=
  (∑ k, max ((((∑ i, s i * Ws i k) + ∑ i, d i * Wd i k) + ∑ i, x i * We i k) + bc1 k) z0 * w2 k) + bc2

end Cert.Spec

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«123659_j53171695124547_2_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.KernelEnc.lean ====
/-
  The encoder kernel's arithmetic, one entry at a time.

  The body works on a block of 5000 attribute rows. Each of its two rounds is an affine map of the row followed by a
  normalisation along the row: the row's mean and the mean of its squared deviations are row sums divided by 128, kept as a
  column and repeated along the row; gain and offset are rows repeated down the block. So entry (r, j) of what the body
  stores depends on row r of the block only, and is the row function `Spec.encRow` of that row.
-/
import proofs.«123659_j53171695124547_2_alg».proof.Proof.Gen.KernelIdeal.Skeleton
import proofs.«123659_j53171695124547_2_alg».proof.Proof.Spec
import proofs.«123659_j53171695124547_2_alg».proof.Proof.LibColumnLayout
import proofs.«123659_j53171695124547_2_alg».proof.Proof.LibDotSums
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Enc

open Idealize.ShloMosaic Idealize.ShloMosaic.ValueIdx Cert.KernelIdeal Cert.KernelIdeal.Gen Cert.Spec

/-- The row sums of a block, kept as a column: at (p, u) the sum of row p. -/
theorem colsum_apply (v : FVec Ideal S5000x128 .f32) (hφ : FTy.f32 = FTy.f32 ∨ FTy.f32 = FTy.bf16)
    (hacc : @Eq (BitVec FTy.f32.bits) 0x00000000#32 0x00000000#32) (p : Fin 5000) (u : Fin 1) :
    shapeCast S5000x1 (multiReduction .add [1] S5000 v 0x00000000#32 reduces_S5000x128_S5000 hφ hacc) shapeCasts_S5000_S5000x1 (ix2 p u)
      = ∑ k : Fin 128, v (ix2 p k) := by
  refine (Cert.ColumnLayout.shapeCast_a_a1_apply _ _ p u).trans ?_
  refine (Ideal.multiReduction_add_single v 0x00000000#32 reduces_S5000x128_S5000 hφ hacc (ix1 p)).trans ?_
  exact Finset.sum_congr rfl fun k _ => congrArg v (funext fun d => by match d with | ⟨0, _⟩ => rfl | ⟨1, _⟩ => rfl)

/-- A vector of 128 entries laid as one row and repeated down the block: at (r, j) its entry j. -/
theorem rowvec_apply (g : FVec Ideal S128 .f32) (r : Fin 5000) (j : Fin 128) :
    broadcastTo S5000x128 (shapeCast S1x128 g shapeCasts_S128_S1x128) broadcasts_S1x128_S5000x128 (ix2 r j) = g (ix1 j) :=
  (broadcastTo_1b_ab_apply _ _ r j).trans (shapeCast_a_1a_apply g _ 0 j)

/-- A column repeated along the rows: at (r, j) the column's entry of row r. -/
theorem col_apply (u : FVec Ideal S5000x1 .f32) (r : Fin 5000) (j : Fin 128) :
    broadcastTo S5000x128 u broadcasts_S5000x1_S5000x128 (ix2 r j) = u (ix2 r (0 : Fin 1)) :=
  Cert.ColumnLayout.broadcastTo_a1_ab_apply u _ r j

/-- The column of row means of a block: the row sums, as a column, divided by 128. -/
def meanCol (v : FVec Ideal S5000x128 .f32) : FVec Ideal S5000x1 .f32 :=
  divf (shapeCast S5000x1 (multiReduction .add [1] S5000 v 0x00000000#32 reduces_S5000x128_S5000 (.inl rfl) rfl) shapeCasts_S5000_S5000x1)
    (broadcast S5000x1 (Scalar.ofBits (F := Ideal) .f32 0x43000000#32))

/-- Its entry of row p is the mean of row p. -/
theorem meanCol_apply (v : FVec Ideal S5000x128 .f32) (p : Fin 5000) (u : Fin 1) :
    meanCol v (ix2 p u) = mean (fun k => v (ix2 p k)) :=
  congrArg (Ideal.div · c128) (colsum_apply v _ _ p u)

/-- The reciprocal square root of a vector is taken entry by entry. -/
theorem rsqrt_apply {s : Shape} (a : FVec Ideal s .f32) (i : s.Idx) : rsqrt a i = Ideal.rsqrt (a i) := rfl

/-- The normalisation and rectifier that close a round: entry (r, j) is the row function of row r. -/
theorem norm_apply (h : FVec Ideal S5000x128 .f32) (g b : FVec Ideal S128 .f32) (r : Fin 5000) (j : Fin 128) :
    k0_pay1 (F := Ideal) h g b (ix2 r j) = lnRelu (fun k => h (ix2 r k)) (fun k => g (ix1 k)) (fun k => b (ix1 k)) j := by
  show maximumf (addf (mulf (mulf (subf h (broadcastTo S5000x128 (meanCol h) broadcasts_S5000x1_S5000x128))
      (broadcastTo S5000x128 (rsqrt (addf (meanCol (mulf (subf h (broadcastTo S5000x128 (meanCol h) broadcasts_S5000x1_S5000x128))
          (subf h (broadcastTo S5000x128 (meanCol h) broadcasts_S5000x1_S5000x128))))
        (broadcast S5000x1 (Scalar.ofBits (F := Ideal) .f32 0x3727C5AC#32)))) broadcasts_S5000x1_S5000x128))
      (broadcastTo S5000x128 (shapeCast S1x128 g shapeCasts_S128_S1x128) broadcasts_S1x128_S5000x128))
      (broadcastTo S5000x128 (shapeCast S1x128 b shapeCasts_S128_S1x128) broadcasts_S1x128_S5000x128))
      (broadcast S5000x128 (Scalar.ofBits (F := Ideal) .f32 0x00000000#32)) (ix2 r j) = _
  simp only [maximumf_apply, addf_apply, mulf_apply, subf_apply, broadcast_apply, rsqrt_apply, rowvec_apply, col_apply,
    meanCol_apply]
  rfl

/-- An affine map of the block's rows with 32 inputs: entry (r, j) is the product of row r with column j, plus offset j. -/
theorem affine32_apply (x : FVec Ideal S5000x32 .f32) (W : FVec Ideal S32x128 .f32) (bv : FVec Ideal S128 .f32)
    (r : Fin 5000) (j : Fin 128) :
    addf (matmul dot_S5000x32_S32x128_S5000x128_1_0_0_1_n_n none x W (constant S5000x128 .f32 0x00000000#32))
        (broadcastTo S5000x128 (shapeCast S1x128 bv shapeCasts_S128_S1x128) broadcasts_S1x128_S5000x128) (ix2 r j)
      = (∑ k : Fin 32, x (ix2 r k) * W (ix2 k j)) + bv (ix1 j) := by
  rw [addf_apply, rowvec_apply]
  exact congrArg (· + bv (ix1 j))
    (Cert.DotSums.matmul_zero_ix2 dot_S5000x32_S32x128_S5000x128_1_0_0_1_n_n none rfl rfl rfl rfl rfl rfl rfl rfl x W r j)

/-- The same with 128 inputs. -/
theorem affine128_apply (x : FVec Ideal S5000x128 .f32) (W : FVec Ideal S128x128 .f32) (bv : FVec Ideal S128 .f32)
    (r : Fin 5000) (j : Fin 128) :
    addf (matmul dot_S5000x128_S128x128_S5000x128_1_0_0_1_n_n none x W (constant S5000x128 .f32 0x00000000#32))
        (broadcastTo S5000x128 (shapeCast S1x128 bv shapeCasts_S128_S1x128) broadcasts_S1x128_S5000x128) (ix2 r j)
      = (∑ k : Fin 128, x (ix2 r k) * W (ix2 k j)) + bv (ix1 j) := by
  rw [addf_apply, rowvec_apply]
  exact congrArg (· + bv (ix1 j))
    (Cert.DotSums.matmul_zero_ix2 dot_S5000x128_S128x128_S5000x128_1_0_0_1_n_n none rfl rfl rfl rfl rfl rfl rfl rfl x W r j)

/-- The first round and the second round's affine map, as the body computes them: the first round is the same
    normalisation applied to the first affine map. -/
theorem round1_eq (x0 : FVec Ideal S5000x32 .f32) (x1 : FVec Ideal S32x128 .f32) (x2 x3 x4 : FVec Ideal S128 .f32)
    (x5 : FVec Ideal S128x128 .f32) (x6 : FVec Ideal S128 .f32) :
    k0_pay2 (F := Ideal) x0 x1 x2 x3 x4 x5 x6
      = addf (matmul dot_S5000x128_S128x128_S5000x128_1_0_0_1_n_n none
            (k0_pay1 (F := Ideal) (addf (matmul dot_S5000x32_S32x128_S5000x128_1_0_0_1_n_n none x0 x1 (constant S5000x128 .f32 0x00000000#32))
              (broadcastTo S5000x128 (shapeCast S1x128 x2 shapeCasts_S128_S1x128) broadcasts_S1x128_S5000x128)) x3 x4)
            x5 (constant S5000x128 .f32 0x00000000#32))
          (broadcastTo S5000x128 (shapeCast S1x128 x6 shapeCasts_S128_S1x128) broadcasts_S1x128_S5000x128) := rfl

/-- What the body stores, at (r, j): the encoding of row r of the attribute block, at j. -/
theorem enc_apply (x0 : FVec Ideal S5000x32 .f32) (x1 : FVec Ideal S32x128 .f32) (x2 x3 x4 : FVec Ideal S128 .f32)
    (x5 : FVec Ideal S128x128 .f32) (x6 x7 x8 : FVec Ideal S128 .f32) (r : Fin 5000) (j : Fin 128) :
    k0_pay1 (F := Ideal) (k0_pay2 (F := Ideal) x0 x1 x2 x3 x4 x5 x6) x7 x8 (ix2 r j)
      = encRow (fun k => x0 (ix2 r k)) (fun k j => x1 (ix2 k j)) (fun j => x2 (ix1 j)) (fun j => x3 (ix1 j)) (fun j => x4 (ix1 j))
          (fun k j => x5 (ix2 k j)) (fun j => x6 (ix1 j)) (fun j => x7 (ix1 j)) (fun j => x8 (ix1 j)) j := by
  rw [norm_apply, round1_eq]
  unfold encRow
  refine congrFun (congrArg (fun f => lnRelu f _ _) (funext fun j' => ?_)) j
  rw [affine128_apply]
  refine congrArg (· + x6 (ix1 j')) (Finset.sum_congr rfl fun k _ => congrArg (· * x5 (ix2 k j')) ?_)
  rw [norm_apply]
  exact congrFun (congrArg (fun f => lnRelu f _ _) (funext fun j'' => affine32_apply x0 x1 x2 r j'')) k

end Cert.KernelIdeal.Enc

end
-- ==== Proof.SpecArrays.lean ====
/-
  The three stages as functions of whole arrays: each applies its row function to every row. An edge array has
  500000 rows and a node array 50000; the weights are read whole.
-/
import proofs.«123659_j53171695124547_2_alg».proof.Proof.Spec
import Idealize.ShloMosaic.Lib.ValueIdx

noncomputable section

namespace Cert.Spec

open Idealize.ShloMosaic Idealize.ShloMosaic.ValueIdx

/-- The encoder on every edge: row e of the result is the encoding of attribute row e. -/
def encArr (ea : (⟨2, ![500000, 32]⟩ : Shape).Idx → EReal) (W1 : (⟨2, ![32, 128]⟩ : Shape).Idx → EReal)
    (b1 g1 be1 : (⟨1, ![128]⟩ : Shape).Idx → EReal) (W2 : (⟨2, ![128, 128]⟩ : Shape).Idx → EReal)
    (b2 g2 be2 : (⟨1, ![128]⟩ : Shape).Idx → EReal) : (⟨2, ![500000, 128]⟩ : Shape).Idx → EReal :=
  fun i => encRow (fun k => ea (ix2 (i 0) k)) (fun k j => W1 (ix2 k j)) (fun j => b1 (ix1 j)) (fun j => g1 (ix1 j))
    (fun j => be1 (ix1 j)) (fun k j => W2 (ix2 k j)) (fun j => b2 (ix1 j)) (fun j => g2 (ix1 j)) (fun j => be2 (ix1 j)) (i 1)

/-- The state update on every node: row v of the result is the new state of node v. The two weight matrices are read
    already transposed, 128 rows by 384 columns. -/
def gruArr (ag hp : (⟨2, ![50000, 128]⟩ : Shape).Idx → EReal) (Wi : (⟨2, ![128, 384]⟩ : Shape).Idx → EReal)
    (bi : (⟨1, ![384]⟩ : Shape).Idx → EReal) (Wh : (⟨2, ![128, 384]⟩ : Shape).Idx → EReal)
    (bh : (⟨1, ![384]⟩ : Shape).Idx → EReal) : (⟨2, ![50000, 128]⟩ : Shape).Idx → EReal :=
  fun i => gruRow (fun k => ag (ix2 (i 0) k)) (fun k => hp (ix2 (i 0) k)) (fun k c => Wi (ix2 k c)) (fun c => bi (ix1 c))
    (fun k c => Wh (ix2 k c)) (fun c => bh (ix1 c)) (i 1)

/-- The classifier on every edge: entry (e, 0) of the result is the score of edge e. -/
def clsArr (hs hd : (⟨2, ![500000, 128]⟩ : Shape).Idx → EReal) (ea : (⟨2, ![500000, 32]⟩ : Shape).Idx → EReal)
    (Ws Wd : (⟨2, ![128, 128]⟩ : Shape).Idx → EReal) (We : (⟨2, ![32, 128]⟩ : Shape).Idx → EReal)
    (bc1 : (⟨1, ![128]⟩ : Shape).Idx → EReal) (w2 : (⟨2, ![128, 1]⟩ : Shape).Idx → EReal)
    (bc2 : (⟨1, ![1]⟩ : Shape).Idx → EReal) : (⟨2, ![500000, 1]⟩ : Shape).Idx → EReal :=
  fun i => clsRow (fun k => hs (ix2 (i 0) k)) (fun k => hd (ix2 (i 0) k)) (fun k => ea (ix2 (i 0) k))
    (fun k j => Ws (ix2 k j)) (fun k j => Wd (ix2 k j)) (fun k j => We (ix2 k j)) (fun j => bc1 (ix1 j))
    (fun k => w2 (ix2 k (0 : Fin 1))) (bc2 (ix1 (0 : Fin 1)))

end Cert.Spec

end
-- ==== Proof.Blocks0.lean ====
/-
  The encoder launch, from blocks to the whole array.

  Point t of the grid reads rows 5000·t … 5000·t + 4999 of the attribute array and the weights whole, and writes the same
  rows of the result. Since an entry of what the body stores depends on its own row only, the block point t writes back
  is the restriction to those rows of ONE function of the whole arrays, the encoder applied to every row; the hundred
  blocks cover the result, so after the launch the result array is that function of the arrays the launch found.
-/
import proofs.«123659_j53171695124547_2_alg».proof.Proof.Gen.KernelIdeal.Frame
import proofs.«123659_j53171695124547_2_alg».proof.Proof.KernelEnc
import proofs.«123659_j53171695124547_2_alg».proof.Proof.SpecArrays

set_option maxRecDepth 16384

noncomputable section

namespace Cert.KernelIdeal.Enc

open Idealize.ShloMosaic Idealize.ShloMosaic.TcCoe Idealize.ShloMosaic.ValueIdx Idealize.SL.Sem
open Cert.KernelIdeal Cert.KernelIdeal.Gen Cert.Spec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the attribute window and the result window sit at block row t, block column 0; every
    weight window at block 0. -/
theorem idx0 : ∀ t : Fin cfg0.N, win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 2) = 0 ∧ win0_5.index t (1 : Fin 2) = 0
    ∧ win0_6.index t (0 : Fin 1) = 0 ∧ win0_7.index t (0 : Fin 1) = 0 ∧ win0_8.index t (0 : Fin 1) = 0 :=
  (by decide +kernel : ∀ t : Fin grid0.N, _)

/-- The encoder applied to every row of the arrays the launch finds. -/
abbrev encOf (c : Dev nD) : S500000x128.Idx → EReal :=
  encArr (V c main_arg2) (V c main_arg4) (V c main_arg5) (V c main_arg6) (V c main_arg7) (V c main_arg8) (V c main_arg9)
    (V c main_arg10) (V c main_arg11)

/-- What point t writes back is block t of that function. -/
theorem flushed0_eq (c : Dev nD) (t : Fin cfg0.N) :
    (dat0 V c).flushed 9 t = ((cfg0.win 9).blk t).view.read (Elt Ideal) (encOf V c) := by
  show (cfg0.win 9).cut (grid0.coords t) ((dat0 V c).after 9 t) = _
  rw [after0_9]
  unfold out0_9
  rw [View.canon_unit_zero hz2]
  simp only [View.ld_unit_zero (S := S5000x32) hz2, View.ld_unit_zero (S := S32x128) hz2, View.ld_unit_zero (S := S128) hz1,
    View.ld_unit_zero (S := S128x128) hz2]
  obtain ⟨e00, e01, e90, e91, e10, e11, e2, e3, e4, e50, e51, e6, e7, e8⟩ := idx0 t
  funext y
  obtain ⟨p, q, rfl⟩ : ∃ (p : Fin 5000) (q : Fin 128), y = ix2 p q := ⟨y 0, y 1, eq_ix2 y⟩
  refine (enc_apply (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  show _ = encRow (fun k => V c main_arg2 (ix2 ((((cfg0.win 9).blk t).view.emb (ix2 p q)) 0) k)) (fun k j => V c main_arg4 (ix2 k j))
    (fun j => V c main_arg5 (ix1 j)) (fun j => V c main_arg6 (ix1 j)) (fun j => V c main_arg7 (ix1 j)) (fun k j => V c main_arg8 (ix2 k j))
    (fun j => V c main_arg9 (ix1 j)) (fun j => V c main_arg10 (ix1 j)) (fun j => V c main_arg11 (ix1 j))
    ((((cfg0.win 9).blk t).view.emb (ix2 p q)) 1)
  have hq : (((cfg0.win 9).blk t).view.emb (ix2 p q)) 1 = q :=
    Fin.ext (by show win0_9.index t 1 * 128 + 1 * q.val = q.val; omega)
  have h0 : ∀ k : Fin 32, iblk0 V c 0 t (ix2 p k) = V c main_arg2 (ix2 ((((cfg0.win 9).blk t).view.emb (ix2 p q)) 0) k) := fun k => by
    show V c main_arg2 (((cfg0.win 0).blk t).view.emb (ix2 p k)) = _
    refine congrArg (V c main_arg2) (funext fun a => Fin.ext ?_)
    match a with
    | ⟨0, _⟩ => show win0_0.index t 0 * 5000 + 1 * p.val = win0_9.index t 0 * 5000 + 1 * p.val; omega
    | ⟨1, _⟩ => show win0_0.index t 1 * 32 + 1 * k.val = k.val; omega
  have h1 : ∀ (k : Fin 32) (j : Fin 128), iblk0 V c 1 t (ix2 k j) = V c main_arg4 (ix2 k j) := fun k j => by
    show V c main_arg4 (((cfg0.win 1).blk t).view.emb (ix2 k j)) = _
    refine congrArg (V c main_arg4) (funext fun a => Fin.ext ?_)
    match a with
    | ⟨0, _⟩ => show win0_1.index t 0 * 32 + 1 * k.val = k.val; omega
    | ⟨1, _⟩ => show win0_1.index t 1 * 128 + 1 * j.val = j.val; omega
  have h5 : ∀ (k : Fin 128) (j : Fin 128), iblk0 V c 5 t (ix2 k j) = V c main_arg8 (ix2 k j) := fun k j => by
    show V c main_arg8 (((cfg0.win 5).blk t).view.emb (ix2 k j)) = _
    refine congrArg (V c main_arg8) (funext fun a => Fin.ext ?_)
    match a with
    | ⟨0, _⟩ => show win0_5.index t 0 * 128 + 1 * k.val = k.val; omega
    | ⟨1, _⟩ => show win0_5.index t 1 * 128 + 1 * j.val = j.val; omega
  have h2 : ∀ j : Fin 128, iblk0 V c 2 t (ix1 j) = V c main_arg5 (ix1 j) := fun j => by
    show V c main_arg5 (((cfg0.win 2).blk t).view.emb (ix1 j)) = _
    refine congrArg (V c main_arg5) (funext fun a => Fin.ext ?_)
    match a with
    | ⟨0, _⟩ => show win0_2.index t 0 * 128 + 1 * j.val = j.val; omega
  have h3 : ∀ j : Fin 128, iblk0 V c 3 t (ix1 j) = V c main_arg6 (ix1 j) := fun j => by
    show V c main_arg6 (((cfg0.win 3).blk t).view.emb (ix1 j)) = _
    refine congrArg (V c main_arg6) (funext fun a => Fin.ext ?_)
    match a with
    | ⟨0, _⟩ => show win0_3.index t 0 * 128 + 1 * j.val = j.val; omega
  have h4 : ∀ j : Fin 128, iblk0 V c 4 t (ix1 j) = V c main_arg7 (ix1 j) := fun j => by
    show V c main_arg7 (((cfg0.win 4).blk t).view.emb (ix1 j)) = _
    refine congrArg (V c main_arg7) (funext fun a => Fin.ext ?_)
    match a with
    | ⟨0, _⟩ => show win0_4.index t 0 * 128 + 1 * j.val = j.val; omega
  have h6 : ∀ j : Fin 128, iblk0 V c 6 t (ix1 j) = V c main_arg9 (ix1 j) := fun j => by
    show V c main_arg9 (((cfg0.win 6).blk t).view.emb (ix1 j)) = _
    refine congrArg (V c main_arg9) (funext fun a => Fin.ext ?_)
    match a with
    | ⟨0, _⟩ => show win0_6.index t 0 * 128 + 1 * j.val = j.val; omega
  have h7 : ∀ j : Fin 128, iblk0 V c 7 t (ix1 j) = V c main_arg10 (ix1 j) := fun j => by
    show V c main_arg10 (((cfg0.win 7).blk t).view.emb (ix1 j)) = _
    refine congrArg (V c main_arg10) (funext fun a => Fin.ext ?_)
    match a with
    | ⟨0, _⟩ => show win0_7.index t 0 * 128 + 1 * j.val = j.val; omega
  have h8 : ∀ j : Fin 128, iblk0 V c 8 t (ix1 j) = V c main_arg11 (ix1 j) := fun j => by
    show V c main_arg11 (((cfg0.win 8).blk t).view.emb (ix1 j)) = _
    refine congrArg (V c main_arg11) (funext fun a => Fin.ext ?_)
    match a with
    | ⟨0, _⟩ => show win0_8.index t 0 * 128 + 1 * j.val = j.val; omega
  simp only [h0, h1, h2, h3, h4, h5, h6, h7, h8, hq]

/-- An index is in point t's block of the result iff each coordinate is in the block's range. -/
theorem mem_blk0 (t : Fin cfg0.N) (i : S500000x128.Idx) :
    i ∈ ((cfg0.win 9).blk t).view.set ↔ ∀ a : Fin 2, win0_9.index t a * S5000x128.size a ≤ (i a).val
      ∧ (i a).val < win0_9.index t a * S5000x128.size a + S5000x128.size a := by
  show i ∈ ((View.whole main_v4).slice (win0_9.rect t)).set ↔ _
  rw [View.set_slice_whole, Rect.mem_set_unit]
  exact Iff.rfl

/-- Row e of the result lies in the block of point e / 5000. -/
theorem cover0 (i : S500000x128.Idx) :
    ∃ t : Fin cfg0.N, (cfg0.win 9).flush t = true ∧ i ∈ ((cfg0.win 9).blk t).view.set := by
  have hN : cfg0.N = 100 := N_0
  have hi0 : (i 0).val < 500000 := (i 0).isLt
  have hi1 : (i 1).val < 128 := (i 1).isLt
  have ht : (i 0).val / 5000 < cfg0.N := by rw [hN]; omega
  obtain ⟨e00, e01, e90, e91, -⟩ := idx0 ⟨(i 0).val / 5000, ht⟩
  refine ⟨⟨(i 0).val / 5000, ht⟩, flush0_9 _, ?_⟩
  rw [mem_blk0]
  intro a
  match a with
  | ⟨0, _⟩ =>
    show win0_9.index ⟨(i 0).val / 5000, ht⟩ 0 * 5000 ≤ (i 0).val ∧ (i 0).val < win0_9.index ⟨(i 0).val / 5000, ht⟩ 0 * 5000 + 5000
    rw [e90]; show (i 0).val / 5000 * 5000 ≤ (i 0).val ∧ (i 0).val < (i 0).val / 5000 * 5000 + 5000; omega
  | ⟨1, _⟩ =>
    show win0_9.index ⟨(i 0).val / 5000, ht⟩ 1 * 128 ≤ (i 1).val ∧ (i 1).val < win0_9.index ⟨(i 0).val / 5000, ht⟩ 1 * 128 + 128
    rw [e91]; omega

/-- After the launch the result array is the encoder applied to every row of the arrays the launch found. -/
theorem arr0 (c : Dev nD) : (dat0 V c).arrAt 9 cfg0.N = encOf V c :=
  (dat0 V c).arrAt_eq_of_cover 9 (encOf V c) (fun t _ => flushed0_eq V c t) (cover0)

end Cert.KernelIdeal.Enc

end
-- ==== Proof.KernelGru.lean ====
/-
  The state-update kernel's arithmetic, one entry at a time.

  The body works on a block of 5000 node rows: two affine maps into 384 columns (one of the aggregate rows, one of the
  previous-state rows), cut into three thirds of 128 columns; the first two thirds pass through the logistic function, the
  last through the hyperbolic tangent, and the result mixes the candidate with the previous state. Entry (r, j) depends on
  row r of the two blocks only, and is the row function `Spec.gruRow` of those rows.
-/
import proofs.«123659_j53171695124547_2_alg».proof.Proof.Gen.KernelIdeal.Skeleton
import proofs.«123659_j53171695124547_2_alg».proof.Proof.Spec
import proofs.«123659_j53171695124547_2_alg».proof.Proof.LibDotSums
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Gru

open Idealize.ShloMosaic Idealize.ShloMosaic.ValueIdx Cert.KernelIdeal Cert.KernelIdeal.Gen Cert.Spec

/-- An affine map of the block's rows into 384 columns, as the body spells it. -/
def affine384 (x : FVec Ideal S5000x128 .f32) (W : FVec Ideal S128x384 .f32) (bv : FVec Ideal S384 .f32) : FVec Ideal S5000x384 .f32 :=
  addf (matmul dot_S5000x128_S128x384_S5000x384_1_0_0_1_n_n none x (shapeCast S128x384 W shapeCasts_S128x384_S128x384)
      (constant S5000x384 .f32 0x00000000#32))
    (broadcastTo S5000x384 (shapeCast S1x384 bv shapeCasts_S384_S1x384) broadcasts_S1x384_S5000x384)

/-- Its entry (r, c): row r against column c, plus offset c. -/
theorem affine384_apply (x : FVec Ideal S5000x128 .f32) (W : FVec Ideal S128x384 .f32) (bv : FVec Ideal S384 .f32)
    (r : Fin 5000) (c : Fin 384) :
    affine384 x W bv (ix2 r c) = (∑ k : Fin 128, x (ix2 r k) * W (ix2 k c)) + bv (ix1 c) := by
  unfold affine384
  rw [shapeCast_self, addf_apply]
  refine congrArg₂ (· + ·)
    (Cert.DotSums.matmul_zero_ix2 dot_S5000x128_S128x384_S5000x384_1_0_0_1_n_n none rfl rfl rfl rfl rfl rfl rfl rfl x W r c) ?_
  exact (broadcastTo_1b_ab_apply _ _ r c).trans (shapeCast_a_1a_apply bv _ 0 c)

/-- The three thirds of a 384-column block. -/
theorem third0_apply (g : FVec Ideal S5000x384 .f32) (r : Fin 5000) (j : Fin 128) :
    extractStridedSlice S5000x128 ![0, 0] g slices_S5000x384_o0_0_S5000x128 (ix2 r j) = g (ix2 r ⟨j.val, by omega⟩) :=
  slice2_axis1_apply 0 g _ r j ⟨j.val, by omega⟩ (by simp)
theorem third1_apply (g : FVec Ideal S5000x384 .f32) (r : Fin 5000) (j : Fin 128) :
    extractStridedSlice S5000x128 ![0, 128] g slices_S5000x384_o0_128_S5000x128 (ix2 r j) = g (ix2 r ⟨128 + j.val, by omega⟩) :=
  slice2_axis1_apply 128 g _ r j ⟨128 + j.val, by omega⟩ rfl
theorem third2_apply (g : FVec Ideal S5000x384 .f32) (r : Fin 5000) (j : Fin 128) :
    extractStridedSlice S5000x128 ![0, 256] g slices_S5000x384_o0_256_S5000x128 (ix2 r j) = g (ix2 r ⟨256 + j.val, by omega⟩) :=
  slice2_axis1_apply 256 g _ r j ⟨256 + j.val, by omega⟩ rfl

theorem logistic_apply {s : Shape} (a : FVec Ideal s .f32) (i : s.Idx) : logistic a i = Ideal.logistic (a i) := rfl
theorem tanh_apply {s : Shape} (a : FVec Ideal s .f32) (i : s.Idx) : tanh a i = Ideal.tanh (a i) := rfl

/-- What the body stores, at (r, j): the new state of the node of row r, at j. -/
theorem gru_apply (x0 x1 : FVec Ideal S5000x128 .f32) (x2 : FVec Ideal S128x384 .f32) (x3 : FVec Ideal S384 .f32)
    (x4 : FVec Ideal S128x384 .f32) (x5 : FVec Ideal S384 .f32) (r : Fin 5000) (j : Fin 128) :
    k1_pay1 (F := Ideal) x0 x1 x2 x3 x4 x5 (ix2 r j)
      = gruRow (fun k => x0 (ix2 r k)) (fun k => x1 (ix2 r k)) (fun k c => x2 (ix2 k c)) (fun c => x3 (ix1 c))
          (fun k c => x4 (ix2 k c)) (fun c => x5 (ix1 c)) j := by
  have e0 : shapeCast S5000x128 x0 shapeCasts_S5000x128_S5000x128 = x0 := shapeCast_self _ _
  show addf (mulf (subf (broadcast S5000x128 (Scalar.ofBits (F := Ideal) .f32 0x3F800000#32))
        (logistic (addf (extractStridedSlice S5000x128 ![0, 128] (affine384 (shapeCast S5000x128 x0 shapeCasts_S5000x128_S5000x128) x2 x3) slices_S5000x384_o0_128_S5000x128)
          (extractStridedSlice S5000x128 ![0, 128] (affine384 x1 x4 x5) slices_S5000x384_o0_128_S5000x128))))
      (tanh (addf (extractStridedSlice S5000x128 ![0, 256] (affine384 (shapeCast S5000x128 x0 shapeCasts_S5000x128_S5000x128) x2 x3) slices_S5000x384_o0_256_S5000x128)
        (mulf (logistic (addf (extractStridedSlice S5000x128 ![0, 0] (affine384 (shapeCast S5000x128 x0 shapeCasts_S5000x128_S5000x128) x2 x3) slices_S5000x384_o0_0_S5000x128)
            (extractStridedSlice S5000x128 ![0, 0] (affine384 x1 x4 x5) slices_S5000x384_o0_0_S5000x128)))
          (extractStridedSlice S5000x128 ![0, 256] (affine384 x1 x4 x5) slices_S5000x384_o0_256_S5000x128)))))
      (mulf (logistic (addf (extractStridedSlice S5000x128 ![0, 128] (affine384 (shapeCast S5000x128 x0 shapeCasts_S5000x128_S5000x128) x2 x3) slices_S5000x384_o0_128_S5000x128)
          (extractStridedSlice S5000x128 ![0, 128] (affine384 x1 x4 x5) slices_S5000x384_o0_128_S5000x128))) x1) (ix2 r j) = _
  rw [e0]
  simp only [addf_apply, mulf_apply, subf_apply, broadcast_apply, logistic_apply, tanh_apply, third0_apply, third1_apply,
    third2_apply, affine384_apply]
  rfl

end Cert.KernelIdeal.Gru

end
-- ==== Proof.Blocks1.lean ====
/-
  The state-update launch, from blocks to the whole array.

  Point t of the grid reads rows 5000·t … 5000·t + 4999 of the aggregate array and of the previous-state array and the
  weights whole, and writes the same rows of the new-state array. An entry of what the body stores depends on its own row
  only, so each written block is the restriction to its rows of ONE function of the whole arrays, the update applied to
  every node; the ten blocks cover the array.
-/
import proofs.«123659_j53171695124547_2_alg».proof.Proof.Gen.KernelIdeal.Frame
import proofs.«123659_j53171695124547_2_alg».proof.Proof.KernelGru
import proofs.«123659_j53171695124547_2_alg».proof.Proof.SpecArrays

set_option maxRecDepth 16384

noncomputable section

namespace Cert.KernelIdeal.Gru

open Idealize.ShloMosaic Idealize.ShloMosaic.TcCoe Idealize.ShloMosaic.ValueIdx Idealize.SL.Sem
open Cert.KernelIdeal Cert.KernelIdeal.Gen Cert.Spec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the two row windows and the result window sit at block row t; every weight window at
    block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_6.index t (0 : Fin 2) = t.val ∧ win1_6.index t (1 : Fin 2) = 0
    ∧ win1_2.index t (0 : Fin 2) = 0 ∧ win1_2.index t (1 : Fin 2) = 0 ∧ win1_3.index t (0 : Fin 1) = 0
    ∧ win1_4.index t (0 : Fin 2) = 0 ∧ win1_4.index t (1 : Fin 2) = 0 ∧ win1_5.index t (0 : Fin 1) = 0 :=
  (by decide +kernel : ∀ t : Fin grid1.N, _)

/-- The update applied to every node of the arrays the launch finds. -/
abbrev gruOf (c : Dev nD) : S50000x128.Idx → EReal :=
  gruArr (V c main_v16) (V c main_arg3) (V c main_v17) (V c main_arg13) (V c main_v18) (V c main_arg15)

/-- What point t writes back is block t of that function. -/
theorem flushed1_eq (c : Dev nD) (t : Fin cfg1.N) :
    (dat1 V c).flushed 6 t = ((cfg1.win 6).blk t).view.read (Elt Ideal) (gruOf V c) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S128x384) hz2, View.ld_unit_zero (S := S384) hz1]
  obtain ⟨e00, e01, e10, e11, e60, e61, e20, e21, e3, e40, e41, e5⟩ := idx1 t
  funext y
  obtain ⟨p, q, rfl⟩ : ∃ (p : Fin 5000) (q : Fin 128), y = ix2 p q := ⟨y 0, y 1, eq_ix2 y⟩
  refine (gru_apply (iblk1 V c 0 t) (iblk1 V c 1 t) (iblk1 V c 2 t) (iblk1 V c 3 t) (iblk1 V c 4 t) (iblk1 V c 5 t) p q).trans ?_
  show _ = gruRow (fun k => V c main_v16 (ix2 ((((cfg1.win 6).blk t).view.emb (ix2 p q)) 0) k))
    (fun k => V c main_arg3 (ix2 ((((cfg1.win 6).blk t).view.emb (ix2 p q)) 0) k))
    (fun k j => V c main_v17 (ix2 k j)) (fun j => V c main_arg13 (ix1 j)) (fun k j => V c main_v18 (ix2 k j))
    (fun j => V c main_arg15 (ix1 j)) ((((cfg1.win 6).blk t).view.emb (ix2 p q)) 1)
  have hq : (((cfg1.win 6).blk t).view.emb (ix2 p q)) 1 = q :=
    Fin.ext (by show win1_6.index t 1 * 128 + 1 * q.val = q.val; omega)
  have h0 : ∀ k : Fin 128, iblk1 V c 0 t (ix2 p k) = V c main_v16 (ix2 ((((cfg1.win 6).blk t).view.emb (ix2 p q)) 0) k) := fun k => by
    show V c main_v16 (((cfg1.win 0).blk t).view.emb (ix2 p k)) = _
    refine congrArg (V c main_v16) (funext fun a => Fin.ext ?_)
    match a with
    | ⟨0, _⟩ => show win1_0.index t 0 * 5000 + 1 * p.val = win1_6.index t 0 * 5000 + 1 * p.val; omega
    | ⟨1, _⟩ => show win1_0.index t 1 * 128 + 1 * k.val = k.val; omega
  have h1 : ∀ k : Fin 128, iblk1 V c 1 t (ix2 p k) = V c main_arg3 (ix2 ((((cfg1.win 6).blk t).view.emb (ix2 p q)) 0) k) := fun k => by
    show V c main_arg3 (((cfg1.win 1).blk t).view.emb (ix2 p k)) = _
    refine congrArg (V c main_arg3) (funext fun a => Fin.ext ?_)
    match a with
    | ⟨0, _⟩ => show win1_1.index t 0 * 5000 + 1 * p.val = win1_6.index t 0 * 5000 + 1 * p.val; omega
    | ⟨1, _⟩ => show win1_1.index t 1 * 128 + 1 * k.val = k.val; omega
  have h2 : ∀ (k : Fin 128) (j : Fin 384), iblk1 V c 2 t (ix2 k j) = V c main_v17 (ix2 k j) := fun k j => by
    show V c main_v17 (((cfg1.win 2).blk t).view.emb (ix2 k j)) = _
    refine congrArg (V c main_v17) (funext fun a => Fin.ext ?_)
    match a with
    | ⟨0, _⟩ => show win1_2.index t 0 * 128 + 1 * k.val = k.val; omega
    | ⟨1, _⟩ => show win1_2.index t 1 * 384 + 1 * j.val = j.val; omega
  have h4 : ∀ (k : Fin 128) (j : Fin 384), iblk1 V c 4 t (ix2 k j) = V c main_v18 (ix2 k j) := fun k j => by
    show V c main_v18 (((cfg1.win 4).blk t).view.emb (ix2 k j)) = _
    refine congrArg (V c main_v18) (funext fun a => Fin.ext ?_)
    match a with
    | ⟨0, _⟩ => show win1_4.index t 0 * 128 + 1 * k.val = k.val; omega
    | ⟨1, _⟩ => show win1_4.index t 1 * 384 + 1 * j.val = j.val; omega
  have h3 : ∀ j : Fin 384, iblk1 V c 3 t (ix1 j) = V c main_arg13 (ix1 j) := fun j => by
    show V c main_arg13 (((cfg1.win 3).blk t).view.emb (ix1 j)) = _
    refine congrArg (V c main_arg13) (funext fun a => Fin.ext ?_)
    match a with
    | ⟨0, _⟩ => show win1_3.index t 0 * 384 + 1 * j.val = j.val; omega
  have h5 : ∀ j : Fin 384, iblk1 V c 5 t (ix1 j) = V c main_arg15 (ix1 j) := fun j => by
    show V c main_arg15 (((cfg1.win 5).blk t).view.emb (ix1 j)) = _
    refine congrArg (V c main_arg15) (funext fun a => Fin.ext ?_)
    match a with
    | ⟨0, _⟩ => show win1_5.index t 0 * 384 + 1 * j.val = j.val; omega
  simp only [h0, h1, h2, h3, h4, h5, hq]

/-- An index is in point t's block of the result iff each coordinate is in the block's range. -/
theorem mem_blk1 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v19).slice (win1_6.rect t)).set ↔ _
  rw [View.set_slice_whole, Rect.mem_set_unit]
  exact Iff.rfl

/-- Row v of the result lies in the block of point v / 5000. -/
theorem cover1 (i : S50000x128.Idx) :
    ∃ t : Fin cfg1.N, (cfg1.win 6).flush t = true ∧ i ∈ ((cfg1.win 6).blk t).view.set := by
  have hN : cfg1.N = 10 := N_1
  have hi0 : (i 0).val < 50000 := (i 0).isLt
  have hi1 : (i 1).val < 128 := (i 1).isLt
  have ht : (i 0).val / 5000 < cfg1.N := by rw [hN]; omega
  obtain ⟨e00, e01, e10, e11, e60, e61, -⟩ := idx1 ⟨(i 0).val / 5000, ht⟩
  refine ⟨⟨(i 0).val / 5000, ht⟩, flush1_6 _, ?_⟩
  rw [mem_blk1]
  intro a
  match a with
  | ⟨0, _⟩ =>
    show win1_6.index ⟨(i 0).val / 5000, ht⟩ 0 * 5000 ≤ (i 0).val ∧ (i 0).val < win1_6.index ⟨(i 0).val / 5000, ht⟩ 0 * 5000 + 5000
    rw [e60]; show (i 0).val / 5000 * 5000 ≤ (i 0).val ∧ (i 0).val < (i 0).val / 5000 * 5000 + 5000; omega
  | ⟨1, _⟩ =>
    show win1_6.index ⟨(i 0).val / 5000, ht⟩ 1 * 128 ≤ (i 1).val ∧ (i 1).val < win1_6.index ⟨(i 0).val / 5000, ht⟩ 1 * 128 + 128
    rw [e61]; omega

/-- After the launch the new-state array is the update applied to every node of the arrays the launch found. -/
theorem arr1 (c : Dev nD) : (dat1 V c).arrAt 6 cfg1.N = gruOf V c :=
  (dat1 V c).arrAt_eq_of_cover 6 (gruOf V c) (fun t _ => flushed1_eq V c t) (cover1)

end Cert.KernelIdeal.Gru

end
-- ==== Proof.KernelCls.lean ====
/-
  The classifier kernel's arithmetic, one entry at a time.

  The body works on a block of 5000 edges: the hidden layer adds three partial products — source-state rows, destination-
  state rows and attribute rows, each against its own slab of the first weight matrix —, adds the offset and cuts at zero;
  the score is the hidden row against the one column of the second weight matrix, plus its offset. Entry (r, 0) depends on
  row r of the three blocks only, and is the row function `Spec.clsRow` of those rows.
-/
import proofs.«123659_j53171695124547_2_alg».proof.Proof.Gen.KernelIdeal.Skeleton
import proofs.«123659_j53171695124547_2_alg».proof.Proof.Spec
import proofs.«123659_j53171695124547_2_alg».proof.Proof.LibDotSums
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Cls

open Idealize.ShloMosaic Idealize.ShloMosaic.ValueIdx Cert.KernelIdeal Cert.KernelIdeal.Gen Cert.Spec

/-- The hidden layer of the block, as the body spells it. -/
def hidden (s d : FVec Ideal S5000x128 .f32) (x : FVec Ideal S5000x32 .f32) (Ws Wd : FVec Ideal S128x128 .f32)
    (We : FVec Ideal S32x128 .f32) (bc1 : FVec Ideal S128 .f32) : FVec Ideal S5000x128 .f32 :=
  maximumf
    (addf (addf (addf
        (matmul dot_S5000x128_S128x128_S5000x128_1_0_0_1_n_n none (shapeCast S5000x128 s shapeCasts_S5000x128_S5000x128)
          (shapeCast S128x128 Ws shapeCasts_S128x128_S128x128) (constant S5000x128 .f32 0x00000000#32))
        (matmul dot_S5000x128_S128x128_S5000x128_1_0_0_1_n_n none (shapeCast S5000x128 d shapeCasts_S5000x128_S5000x128)
          (shapeCast S128x128 Wd shapeCasts_S128x128_S128x128) (constant S5000x128 .f32 0x00000000#32)))
        (matmul dot_S5000x32_S32x128_S5000x128_1_0_0_1_n_n none x (shapeCast S32x128 We shapeCasts_S32x128_S32x128)
          (constant S5000x128 .f32 0x00000000#32)))
      (broadcastTo S5000x128 (shapeCast S1x128 bc1 shapeCasts_S128_S1x128) broadcasts_S1x128_S5000x128))
    (broadcast S5000x128 (Scalar.ofBits (F := Ideal) .f32 0x00000000#32))

/-- Its entry (r, k). -/
theorem hidden_apply (s d : FVec Ideal S5000x128 .f32) (x : FVec Ideal S5000x32 .f32) (Ws Wd : FVec Ideal S128x128 .f32)
    (We : FVec Ideal S32x128 .f32) (bc1 : FVec Ideal S128 .f32) (r : Fin 5000) (k : Fin 128) :
    hidden s d x Ws Wd We bc1 (ix2 r k)
      = max ((((∑ i : Fin 128, s (ix2 r i) * Ws (ix2 i k)) + ∑ i : Fin 128, d (ix2 r i) * Wd (ix2 i k))
          + ∑ i : Fin 32, x (ix2 r i) * We (ix2 i k)) + bc1 (ix1 k)) z0 := by
  unfold hidden
  simp only [shapeCast_self]
  rw [maximumf_apply, addf_apply, addf_apply, addf_apply, broadcast_apply]
  exact congrArg₂ max (congrArg₂ (· + ·) (congrArg₂ (· + ·) (congrArg₂ (· + ·)
      (Cert.DotSums.matmul_zero_ix2 dot_S5000x128_S128x128_S5000x128_1_0_0_1_n_n none rfl rfl rfl rfl rfl rfl rfl rfl s Ws r k)
      (Cert.DotSums.matmul_zero_ix2 dot_S5000x128_S128x128_S5000x128_1_0_0_1_n_n none rfl rfl rfl rfl rfl rfl rfl rfl d Wd r k))
      (Cert.DotSums.matmul_zero_ix2 dot_S5000x32_S32x128_S5000x128_1_0_0_1_n_n none rfl rfl rfl rfl rfl rfl rfl rfl x We r k))
      ((broadcastTo_1b_ab_apply _ _ r k).trans (shapeCast_a_1a_apply bc1 _ 0 k))) rfl

/-- What the body stores, at (r, 0): the score of the edge of row r. -/
theorem cls_apply (s d : FVec Ideal S5000x128 .f32) (x : FVec Ideal S5000x32 .f32) (Ws Wd : FVec Ideal S128x128 .f32)
    (We : FVec Ideal S32x128 .f32) (bc1 : FVec Ideal S128 .f32) (w2 : FVec Ideal S128x1 .f32) (bc2 : FVec Ideal S1 .f32)
    (r : Fin 5000) :
    k2_pay1 (F := Ideal) s Ws d Wd x We bc1 w2 bc2 (ix2 r (0 : Fin 1))
      = clsRow (fun k => s (ix2 r k)) (fun k => d (ix2 r k)) (fun k => x (ix2 r k)) (fun k j => Ws (ix2 k j))
          (fun k j => Wd (ix2 k j)) (fun k j => We (ix2 k j)) (fun j => bc1 (ix1 j)) (fun k => w2 (ix2 k (0 : Fin 1)))
          (bc2 (ix1 (0 : Fin 1))) := by
  show addf (matmul dot_S5000x128_S128x1_S5000x1_1_0_0_1_n_n none (hidden s d x Ws Wd We bc1) w2 (constant S5000x1 .f32 0x00000000#32))
      (broadcastTo S5000x1 (shapeCast S1x1 bc2 shapeCasts_S1_S1x1) broadcasts_S1x1_S5000x1) (ix2 r (0 : Fin 1)) = _
  rw [addf_apply]
  unfold clsRow
  refine congrArg₂ (· + ·) ?_ ((broadcastTo_1b_ab_apply _ _ r 0).trans (shapeCast_a_1a_apply bc2 _ 0 0))
  refine (Cert.DotSums.matmul_zero_ix2 dot_S5000x128_S128x1_S5000x1_1_0_0_1_n_n none rfl rfl rfl rfl rfl rfl rfl rfl
    (hidden s d x Ws Wd We bc1) w2 r 0).trans ?_
  exact Finset.sum_congr rfl fun k _ => congrArg (· * w2 (ix2 k (0 : Fin 1))) (hidden_apply s d x Ws Wd We bc1 r k)

end Cert.KernelIdeal.Cls

end
-- ==== Proof.Blocks2.lean ====
/-
  The classifier launch, from blocks to the whole array.

  Point t of the grid reads rows 5000·t … 5000·t + 4999 of the two gathered-state arrays and of the attribute array and
  the weights whole, and writes the same rows of the one-column score array. An entry of what the body stores depends on
  its own row only, so each written block is the restriction to its rows of ONE function of the whole arrays, the
  classifier applied to every edge; the hundred blocks cover the array.
-/
import proofs.«123659_j53171695124547_2_alg».proof.Proof.Gen.KernelIdeal.Frame
import proofs.«123659_j53171695124547_2_alg».proof.Proof.KernelCls
import proofs.«123659_j53171695124547_2_alg».proof.Proof.SpecArrays

set_option maxRecDepth 16384

noncomputable section

namespace Cert.KernelIdeal.Cls

open Idealize.ShloMosaic Idealize.ShloMosaic.TcCoe Idealize.ShloMosaic.ValueIdx Idealize.SL.Sem
open Cert.KernelIdeal Cert.KernelIdeal.Gen Cert.Spec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the three row windows and the result window sit at block row t; every weight window at
    block 0. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_9.index t (0 : Fin 2) = t.val ∧ win2_9.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 1) = 0
    ∧ win2_7.index t (0 : Fin 2) = 0 ∧ win2_7.index t (1 : Fin 2) = 0
    ∧ win2_8.index t (0 : Fin 1) = 0 :=
  (by decide +kernel : ∀ t : Fin grid2.N, _)

/-- The classifier applied to every edge of the arrays the launch finds. -/
abbrev clsOf (c : Dev nD) : S500000x1.Idx → EReal :=
  clsArr (V c main_v26) (V c main_v33) (V c main_arg2) (V c main_v34) (V c main_v35) (V c main_v36) (V c main_arg17)
    (V c main_arg18) (V c main_arg19)

/-- What point t writes back is block t of that function. -/
theorem flushed2_eq (c : Dev nD) (t : Fin cfg2.N) :
    (dat2 V c).flushed 9 t = ((cfg2.win 9).blk t).view.read (Elt Ideal) (clsOf V c) := by
  show (cfg2.win 9).cut (grid2.coords t) ((dat2 V c).after 9 t) = _
  rw [after2_9]
  unfold out2_9
  rw [View.canon_unit_zero hz2]
  simp only [View.ld_unit_zero (S := S5000x128) hz2, View.ld_unit_zero (S := S128x128) hz2, View.ld_unit_zero (S := S5000x32) hz2,
    View.ld_unit_zero (S := S32x128) hz2, View.ld_unit_zero (S := S128) hz1, View.ld_unit_zero (S := S128x1) hz2,
    View.ld_unit_zero (S := S1) hz1]
  obtain ⟨e00, e01, e10, e11, e20, e21, e90, e91, e30, e31, e40, e41, e50, e51, e6, e70, e71, e8⟩ := idx2 t
  funext y
  obtain ⟨p, q, rfl⟩ : ∃ (p : Fin 5000) (q : Fin 1), y = ix2 p q := ⟨y 0, y 1, eq_ix2 y⟩
  obtain rfl : q = 0 := Subsingleton.elim _ _
  refine (cls_apply (iblk2 V c 0 t) (iblk2 V c 1 t) (iblk2 V c 2 t) (iblk2 V c 3 t) (iblk2 V c 4 t) (iblk2 V c 5 t)
    (iblk2 V c 6 t) (iblk2 V c 7 t) (iblk2 V c 8 t) p).trans ?_
  show _ = clsRow (fun k => V c main_v26 (ix2 ((((cfg2.win 9).blk t).view.emb (ix2 p 0)) 0) k))
    (fun k => V c main_v33 (ix2 ((((cfg2.win 9).blk t).view.emb (ix2 p 0)) 0) k))
    (fun k => V c main_arg2 (ix2 ((((cfg2.win 9).blk t).view.emb (ix2 p 0)) 0) k))
    (fun k j => V c main_v34 (ix2 k j)) (fun k j => V c main_v35 (ix2 k j)) (fun k j => V c main_v36 (ix2 k j))
    (fun j => V c main_arg17 (ix1 j)) (fun k => V c main_arg18 (ix2 k (0 : Fin 1))) (V c main_arg19 (ix1 (0 : Fin 1)))
  have h0 : ∀ k : Fin 128, iblk2 V c 0 t (ix2 p k) = V c main_v26 (ix2 ((((cfg2.win 9).blk t).view.emb (ix2 p 0)) 0) k) := fun k => by
    show V c main_v26 (((cfg2.win 0).blk t).view.emb (ix2 p k)) = _
    refine congrArg (V c main_v26) (funext fun a => Fin.ext ?_)
    match a with
    | ⟨0, _⟩ => show win2_0.index t 0 * 5000 + 1 * p.val = win2_9.index t 0 * 5000 + 1 * p.val; omega
    | ⟨1, _⟩ => show win2_0.index t 1 * 128 + 1 * k.val = k.val; omega
  have h1 : ∀ k : Fin 128, iblk2 V c 1 t (ix2 p k) = V c main_v33 (ix2 ((((cfg2.win 9).blk t).view.emb (ix2 p 0)) 0) k) := fun k => by
    show V c main_v33 (((cfg2.win 1).blk t).view.emb (ix2 p k)) = _
    refine congrArg (V c main_v33) (funext fun a => Fin.ext ?_)
    match a with
    | ⟨0, _⟩ => show win2_1.index t 0 * 5000 + 1 * p.val = win2_9.index t 0 * 5000 + 1 * p.val; omega
    | ⟨1, _⟩ => show win2_1.index t 1 * 128 + 1 * k.val = k.val; omega
  have h2 : ∀ k : Fin 32, iblk2 V c 2 t (ix2 p k) = V c main_arg2 (ix2 ((((cfg2.win 9).blk t).view.emb (ix2 p 0)) 0) k) := fun k => by
    show V c main_arg2 (((cfg2.win 2).blk t).view.emb (ix2 p k)) = _
    refine congrArg (V c main_arg2) (funext fun a => Fin.ext ?_)
    match a with
    | ⟨0, _⟩ => show win2_2.index t 0 * 5000 + 1 * p.val = win2_9.index t 0 * 5000 + 1 * p.val; omega
    | ⟨1, _⟩ => show win2_2.index t 1 * 32 + 1 * k.val = k.val; omega
  have h3 : ∀ (k : Fin 128) (j : Fin 128), iblk2 V c 3 t (ix2 k j) = V c main_v34 (ix2 k j) := fun k j => by
    show V c main_v34 (((cfg2.win 3).blk t).view.emb (ix2 k j)) = _
    refine congrArg (V c main_v34) (funext fun a => Fin.ext ?_)
    match a with
    | ⟨0, _⟩ => show win2_3.index t 0 * 128 + 1 * k.val = k.val; omega
    | ⟨1, _⟩ => show win2_3.index t 1 * 128 + 1 * j.val = j.val; omega
  have h4 : ∀ (k : Fin 128) (j : Fin 128), iblk2 V c 4 t (ix2 k j) = V c main_v35 (ix2 k j) := fun k j => by
    show V c main_v35 (((cfg2.win 4).blk t).view.emb (ix2 k j)) = _
    refine congrArg (V c main_v35) (funext fun a => Fin.ext ?_)
    match a with
    | ⟨0, _⟩ => show win2_4.index t 0 * 128 + 1 * k.val = k.val; omega
    | ⟨1, _⟩ => show win2_4.index t 1 * 128 + 1 * j.val = j.val; omega
  have h5 : ∀ (k : Fin 32) (j : Fin 128), iblk2 V c 5 t (ix2 k j) = V c main_v36 (ix2 k j) := fun k j => by
    show V c main_v36 (((cfg2.win 5).blk t).view.emb (ix2 k j)) = _
    refine congrArg (V c main_v36) (funext fun a => Fin.ext ?_)
    match a with
    | ⟨0, _⟩ => show win2_5.index t 0 * 32 + 1 * k.val = k.val; omega
    | ⟨1, _⟩ => show win2_5.index t 1 * 128 + 1 * j.val = j.val; omega
  have h6 : ∀ j : Fin 128, iblk2 V c 6 t (ix1 j) = V c main_arg17 (ix1 j) := fun j => by
    show V c main_arg17 (((cfg2.win 6).blk t).view.emb (ix1 j)) = _
    refine congrArg (V c main_arg17) (funext fun a => Fin.ext ?_)
    match a with
    | ⟨0, _⟩ => show win2_6.index t 0 * 128 + 1 * j.val = j.val; omega
  have h7 : ∀ k : Fin 128, iblk2 V c 7 t (ix2 k (0 : Fin 1)) = V c main_arg18 (ix2 k (0 : Fin 1)) := fun k => by
    show V c main_arg18 (((cfg2.win 7).blk t).view.emb (ix2 k (0 : Fin 1))) = _
    refine congrArg (V c main_arg18) (funext fun a => Fin.ext ?_)
    match a with
    | ⟨0, _⟩ => show win2_7.index t 0 * 128 + 1 * k.val = k.val; omega
    | ⟨1, _⟩ => show win2_7.index t 1 * 1 + 1 * 0 = 0; omega
  have h8 : iblk2 V c 8 t (ix1 (0 : Fin 1)) = V c main_arg19 (ix1 (0 : Fin 1)) := by
    show V c main_arg19 (((cfg2.win 8).blk t).view.emb (ix1 (0 : Fin 1))) = _
    refine congrArg (V c main_arg19) (funext fun a => Fin.ext ?_)
    match a with
    | ⟨0, _⟩ => show win2_8.index t 0 * 1 + 1 * 0 = 0; omega
  simp only [h0, h1, h2, h3, h4, h5, h6, h7, h8]

/-- An index is in point t's block of the result iff each coordinate is in the block's range. -/
theorem mem_blk2 (t : Fin cfg2.N) (i : S500000x1.Idx) :
    i ∈ ((cfg2.win 9).blk t).view.set ↔ ∀ a : Fin 2, win2_9.index t a * S5000x1.size a ≤ (i a).val
      ∧ (i a).val < win2_9.index t a * S5000x1.size a + S5000x1.size a := by
  show i ∈ ((View.whole main_v37).slice (win2_9.rect t)).set ↔ _
  rw [View.set_slice_whole, Rect.mem_set_unit]
  exact Iff.rfl

/-- Row e of the result lies in the block of point e / 5000. -/
theorem cover2 (i : S500000x1.Idx) :
    ∃ t : Fin cfg2.N, (cfg2.win 9).flush t = true ∧ i ∈ ((cfg2.win 9).blk t).view.set := by
  have hN : cfg2.N = 100 := N_2
  have hi0 : (i 0).val < 500000 := (i 0).isLt
  have hi1 : (i 1).val < 1 := (i 1).isLt
  have ht : (i 0).val / 5000 < cfg2.N := by rw [hN]; omega
  obtain ⟨e00, e01, e10, e11, e20, e21, e90, e91, -⟩ := idx2 ⟨(i 0).val / 5000, ht⟩
  refine ⟨⟨(i 0).val / 5000, ht⟩, flush2_9 _, ?_⟩
  rw [mem_blk2]
  intro a
  match a with
  | ⟨0, _⟩ =>
    show win2_9.index ⟨(i 0).val / 5000, ht⟩ 0 * 5000 ≤ (i 0).val ∧ (i 0).val < win2_9.index ⟨(i 0).val / 5000, ht⟩ 0 * 5000 + 5000
    rw [e90]; show (i 0).val / 5000 * 5000 ≤ (i 0).val ∧ (i 0).val < (i 0).val / 5000 * 5000 + 5000; omega
  | ⟨1, _⟩ =>
    show win2_9.index ⟨(i 0).val / 5000, ht⟩ 1 * 1 ≤ (i 1).val ∧ (i 1).val < win2_9.index ⟨(i 0).val / 5000, ht⟩ 1 * 1 + 1
    rw [e91]; omega

/-- After the launch the score array is the classifier applied to every edge of the arrays the launch found. -/
theorem arr2 (c : Dev nD) : (dat2 V c).arrAt 9 cfg2.N = clsOf V c :=
  (dat2 V c).arrAt_eq_of_cover 9 (clsOf V c) (fun t _ => flushed2_eq V c t) (cover2)

end Cert.KernelIdeal.Cls

end
-- ==== Proof.KernelValue.lean ====
/-
  What the kernel program leaves in its result buffer, as a composition of the three stages.

  The run ends with every buffer at the last boundary's contents. Reading that fold backwards: the score array is the
  classifier applied to the arrays the third launch found; of these the two gathered-state arrays are row gathers of the
  new-state array, which is the state update applied to the arrays the second launch found; of these the aggregate is the
  scatter-mean of the encoding, which is the encoder applied to the arrays the first launch found; and every argument is
  found as launched, no host operation and no launch writing one.
-/
import proofs.«123659_j53171695124547_2_alg».proof.Proof.RunFinal
import proofs.«123659_j53171695124547_2_alg».proof.Proof.Blocks0
import proofs.«123659_j53171695124547_2_alg».proof.Proof.Blocks1
import proofs.«123659_j53171695124547_2_alg».proof.Proof.Blocks2
import Idealize.ShloMosaic.Lib.StableHlo.Run

set_option maxRecDepth 16384

noncomputable section

namespace Cert.KernelIdeal.Final

open Cert.KernelIdeal Cert.KernelIdeal.Gen Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments, as each launch finds them -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W2_arg0 (c : Dev nD) : W2 m ρ c (Proc.devRef .tc main_arg0) = m ((c : Thread nD τ).loc main_arg0) :=
  (W2_of_ne m ρ c main_arg0 (by decide)).trans (W1_arg0 m ρ c)
theorem W3_arg0 (c : Dev nD) : W3 m ρ c (Proc.devRef .tc main_arg0) = m ((c : Thread nD τ).loc main_arg0) := by
  show StableHlo.after hostOps1 (W2 m ρ c) (Proc.devRef .tc main_arg0) = _
  after_results
  exact W2_arg0 m ρ c
theorem W4_arg0 (c : Dev nD) : W4 m ρ c (Proc.devRef .tc main_arg0) = m ((c : Thread nD τ).loc main_arg0) :=
  (W4_of_ne m ρ c main_arg0 (by decide)).trans (W3_arg0 m ρ c)
theorem W5_arg0 (c : Dev nD) : W5 m ρ c (Proc.devRef .tc main_arg0) = m ((c : Thread nD τ).loc main_arg0) := by
  show StableHlo.after hostOps2 (W4 m ρ c) (Proc.devRef .tc main_arg0) = _
  after_results
  exact W4_arg0 m ρ c
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) := by
  show StableHlo.after hostOps1 (W2 m ρ c) (Proc.devRef .tc main_arg1) = _
  after_results
  exact W2_arg1 m ρ c
theorem W4_arg1 (c : Dev nD) : W4 m ρ c (Proc.devRef .tc main_arg1) = m ((c : Thread nD τ).loc main_arg1) :=
  (W4_of_ne m ρ c main_arg1 (by decide)).trans (W3_arg1 m ρ c)
theorem W5_arg1 (c : Dev nD) : W5 m ρ c (Proc.devRef .tc main_arg1) = m ((c : Thread nD τ).loc main_arg1) := by
  show StableHlo.after hostOps2 (W4 m ρ c) (Proc.devRef .tc main_arg1) = _
  after_results
  exact W4_arg1 m ρ c
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W2_arg2 (c : Dev nD) : W2 m ρ c (Proc.devRef .tc main_arg2) = m ((c : Thread nD τ).loc main_arg2) :=
  ((W2_arr m ρ c 0).trans (((dat0 (V1 m ρ) c).arrAt_in 0 rfl _).trans (A_eq0 (V1 m ρ) c 0))).trans (W1_arg2 m ρ c)
theorem W3_arg2 (c : Dev nD) : W3 m ρ c (Proc.devRef .tc main_arg2) = m ((c : Thread nD τ).loc main_arg2) := by
  show StableHlo.after hostOps1 (W2 m ρ c) (Proc.devRef .tc main_arg2) = _
  after_results
  exact W2_arg2 m ρ c
theorem W4_arg2 (c : Dev nD) : W4 m ρ c (Proc.devRef .tc main_arg2) = m ((c : Thread nD τ).loc main_arg2) :=
  (W4_of_ne m ρ c main_arg2 (by decide)).trans (W3_arg2 m ρ c)
theorem W5_arg2 (c : Dev nD) : W5 m ρ c (Proc.devRef .tc main_arg2) = m ((c : Thread nD τ).loc main_arg2) := by
  show StableHlo.after hostOps2 (W4 m ρ c) (Proc.devRef .tc main_arg2) = _
  after_results
  exact W4_arg2 m ρ c
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W2_arg3 (c : Dev nD) : W2 m ρ c (Proc.devRef .tc main_arg3) = m ((c : Thread nD τ).loc main_arg3) :=
  (W2_of_ne m ρ c main_arg3 (by decide)).trans (W1_arg3 m ρ c)
theorem W3_arg3 (c : Dev nD) : W3 m ρ c (Proc.devRef .tc main_arg3) = m ((c : Thread nD τ).loc main_arg3) := by
  show StableHlo.after hostOps1 (W2 m ρ c) (Proc.devRef .tc main_arg3) = _
  after_results
  exact W2_arg3 m ρ c
theorem W4_arg3 (c : Dev nD) : W4 m ρ c (Proc.devRef .tc main_arg3) = m ((c : Thread nD τ).loc main_arg3) :=
  ((W4_arr m ρ c 1).trans (((dat1 (V3 m ρ) c).arrAt_in 1 rfl _).trans (A_eq1 (V3 m ρ) c 1))).trans (W3_arg3 m ρ c)
theorem W5_arg3 (c : Dev nD) : W5 m ρ c (Proc.devRef .tc main_arg3) = m ((c : Thread nD τ).loc main_arg3) := by
  show StableHlo.after hostOps2 (W4 m ρ c) (Proc.devRef .tc main_arg3) = _
  after_results
  exact W4_arg3 m ρ c
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W2_arg4 (c : Dev nD) : W2 m ρ c (Proc.devRef .tc main_arg4) = m ((c : Thread nD τ).loc main_arg4) :=
  ((W2_arr m ρ c 1).trans (((dat0 (V1 m ρ) c).arrAt_in 1 rfl _).trans (A_eq0 (V1 m ρ) c 1))).trans (W1_arg4 m ρ c)
theorem W3_arg4 (c : Dev nD) : W3 m ρ c (Proc.devRef .tc main_arg4) = m ((c : Thread nD τ).loc main_arg4) := by
  show StableHlo.after hostOps1 (W2 m ρ c) (Proc.devRef .tc main_arg4) = _
  after_results
  exact W2_arg4 m ρ c
theorem W4_arg4 (c : Dev nD) : W4 m ρ c (Proc.devRef .tc main_arg4) = m ((c : Thread nD τ).loc main_arg4) :=
  (W4_of_ne m ρ c main_arg4 (by decide)).trans (W3_arg4 m ρ c)
theorem W5_arg4 (c : Dev nD) : W5 m ρ c (Proc.devRef .tc main_arg4) = m ((c : Thread nD τ).loc main_arg4) := by
  show StableHlo.after hostOps2 (W4 m ρ c) (Proc.devRef .tc main_arg4) = _
  after_results
  exact W4_arg4 m ρ c
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W2_arg5 (c : Dev nD) : W2 m ρ c (Proc.devRef .tc main_arg5) = m ((c : Thread nD τ).loc main_arg5) :=
  ((W2_arr m ρ c 2).trans (((dat0 (V1 m ρ) c).arrAt_in 2 rfl _).trans (A_eq0 (V1 m ρ) c 2))).trans (W1_arg5 m ρ c)
theorem W3_arg5 (c : Dev nD) : W3 m ρ c (Proc.devRef .tc main_arg5) = m ((c : Thread nD τ).loc main_arg5) := by
  show StableHlo.after hostOps1 (W2 m ρ c) (Proc.devRef .tc main_arg5) = _
  after_results
  exact W2_arg5 m ρ c
theorem W4_arg5 (c : Dev nD) : W4 m ρ c (Proc.devRef .tc main_arg5) = m ((c : Thread nD τ).loc main_arg5) :=
  (W4_of_ne m ρ c main_arg5 (by decide)).trans (W3_arg5 m ρ c)
theorem W5_arg5 (c : Dev nD) : W5 m ρ c (Proc.devRef .tc main_arg5) = m ((c : Thread nD τ).loc main_arg5) := by
  show StableHlo.after hostOps2 (W4 m ρ c) (Proc.devRef .tc main_arg5) = _
  after_results
  exact W4_arg5 m ρ c
theorem W1_arg6 (c : Dev nD) : W1 m ρ c (Proc.devRef .tc main_arg6) = m ((c : Thread nD τ).loc main_arg6) := by
  show StableHlo.after hostOps0 (W0 m ρ c) (Proc.devRef .tc main_arg6) = _
  after_results
theorem W2_arg6 (c : Dev nD) : W2 m ρ c (Proc.devRef .tc main_arg6) = m ((c : Thread nD τ).loc main_arg6) :=
  ((W2_arr m ρ c 3).trans (((dat0 (V1 m ρ) c).arrAt_in 3 rfl _).trans (A_eq0 (V1 m ρ) c 3))).trans (W1_arg6 m ρ c)
theorem W3_arg6 (c : Dev nD) : W3 m ρ c (Proc.devRef .tc main_arg6) = m ((c : Thread nD τ).loc main_arg6) := by
  show StableHlo.after hostOps1 (W2 m ρ c) (Proc.devRef .tc main_arg6) = _
  after_results
  exact W2_arg6 m ρ c
theorem W4_arg6 (c : Dev nD) : W4 m ρ c (Proc.devRef .tc main_arg6) = m ((c : Thread nD τ).loc main_arg6) :=
  (W4_of_ne m ρ c main_arg6 (by decide)).trans (W3_arg6 m ρ c)
theorem W5_arg6 (c : Dev nD) : W5 m ρ c (Proc.devRef .tc main_arg6) = m ((c : Thread nD τ).loc main_arg6) := by
  show StableHlo.after hostOps2 (W4 m ρ c) (Proc.devRef .tc main_arg6) = _
  after_results
  exact W4_arg6 m ρ c
theorem W1_arg7 (c : Dev nD) : W1 m ρ c (Proc.devRef .tc main_arg7) = m ((c : Thread nD τ).loc main_arg7) := by
  show StableHlo.after hostOps0 (W0 m ρ c) (Proc.devRef .tc main_arg7) = _
  after_results
theorem W2_arg7 (c : Dev nD) : W2 m ρ c (Proc.devRef .tc main_arg7) = m ((c : Thread nD τ).loc main_arg7) :=
  ((W2_arr m ρ c 4).trans (((dat0 (V1 m ρ) c).arrAt_in 4 rfl _).trans (A_eq0 (V1 m ρ) c 4))).trans (W1_arg7 m ρ c)
theorem W3_arg7 (c : Dev nD) : W3 m ρ c (Proc.devRef .tc main_arg7) = m ((c : Thread nD τ).loc main_arg7) := by
  show StableHlo.after hostOps1 (W2 m ρ c) (Proc.devRef .tc main_arg7) = _
  after_results
  exact W2_arg7 m ρ c
theorem W4_arg7 (c : Dev nD) : W4 m ρ c (Proc.devRef .tc main_arg7) = m ((c : Thread nD τ).loc main_arg7) :=
  (W4_of_ne m ρ c main_arg7 (by decide)).trans (W3_arg7 m ρ c)
theorem W5_arg7 (c : Dev nD) : W5 m ρ c (Proc.devRef .tc main_arg7) = m ((c : Thread nD τ).loc main_arg7) := by
  show StableHlo.after hostOps2 (W4 m ρ c) (Proc.devRef .tc main_arg7) = _
  after_results
  exact W4_arg7 m ρ c
theorem W1_arg8 (c : Dev nD) : W1 m ρ c (Proc.devRef .tc main_arg8) = m ((c : Thread nD τ).loc main_arg8) := by
  show StableHlo.after hostOps0 (W0 m ρ c) (Proc.devRef .tc main_arg8) = _
  after_results
theorem W2_arg8 (c : Dev nD) : W2 m ρ c (Proc.devRef .tc main_arg8) = m ((c : Thread nD τ).loc main_arg8) :=
  ((W2_arr m ρ c 5).trans (((dat0 (V1 m ρ) c).arrAt_in 5 rfl _).trans (A_eq0 (V1 m ρ) c 5))).trans (W1_arg8 m ρ c)
theorem W3_arg8 (c : Dev nD) : W3 m ρ c (Proc.devRef .tc main_arg8) = m ((c : Thread nD τ).loc main_arg8) := by
  show StableHlo.after hostOps1 (W2 m ρ c) (Proc.devRef .tc main_arg8) = _
  after_results
  exact W2_arg8 m ρ c
theorem W4_arg8 (c : Dev nD) : W4 m ρ c (Proc.devRef .tc main_arg8) = m ((c : Thread nD τ).loc main_arg8) :=
  (W4_of_ne m ρ c main_arg8 (by decide)).trans (W3_arg8 m ρ c)
theorem W5_arg8 (c : Dev nD) : W5 m ρ c (Proc.devRef .tc main_arg8) = m ((c : Thread nD τ).loc main_arg8) := by
  show StableHlo.after hostOps2 (W4 m ρ c) (Proc.devRef .tc main_arg8) = _
  after_results
  exact W4_arg8 m ρ c
theorem W1_arg9 (c : Dev nD) : W1 m ρ c (Proc.devRef .tc main_arg9) = m ((c : Thread nD τ).loc main_arg9) := by
  show StableHlo.after hostOps0 (W0 m ρ c) (Proc.devRef .tc main_arg9) = _
  after_results
theorem W2_arg9 (c : Dev nD) : W2 m ρ c (Proc.devRef .tc main_arg9) = m ((c : Thread nD τ).loc main_arg9) :=
  ((W2_arr m ρ c 6).trans (((dat0 (V1 m ρ) c).arrAt_in 6 rfl _).trans (A_eq0 (V1 m ρ) c 6))).trans (W1_arg9 m ρ c)
theorem W3_arg9 (c : Dev nD) : W3 m ρ c (Proc.devRef .tc main_arg9) = m ((c : Thread nD τ).loc main_arg9) := by
  show StableHlo.after hostOps1 (W2 m ρ c) (Proc.devRef .tc main_arg9) = _
  after_results
  exact W2_arg9 m ρ c
theorem W4_arg9 (c : Dev nD) : W4 m ρ c (Proc.devRef .tc main_arg9) = m ((c : Thread nD τ).loc main_arg9) :=
  (W4_of_ne m ρ c main_arg9 (by decide)).trans (W3_arg9 m ρ c)
theorem W5_arg9 (c : Dev nD) : W5 m ρ c (Proc.devRef .tc main_arg9) = m ((c : Thread nD τ).loc main_arg9) := by
  show StableHlo.after hostOps2 (W4 m ρ c) (Proc.devRef .tc main_arg9) = _
  after_results
  exact W4_arg9 m ρ c
theorem W1_arg10 (c : Dev nD) : W1 m ρ c (Proc.devRef .tc main_arg10) = m ((c : Thread nD τ).loc main_arg10) := by
  show StableHlo.after hostOps0 (W0 m ρ c) (Proc.devRef .tc main_arg10) = _
  after_results
theorem W2_arg10 (c : Dev nD) : W2 m ρ c (Proc.devRef .tc main_arg10) = m ((c : Thread nD τ).loc main_arg10) :=
  ((W2_arr m ρ c 7).trans (((dat0 (V1 m ρ) c).arrAt_in 7 rfl _).trans (A_eq0 (V1 m ρ) c 7))).trans (W1_arg10 m ρ c)
theorem W3_arg10 (c : Dev nD) : W3 m ρ c (Proc.devRef .tc main_arg10) = m ((c : Thread nD τ).loc main_arg10) := by
  show StableHlo.after hostOps1 (W2 m ρ c) (Proc.devRef .tc main_arg10) = _
  after_results
  exact W2_arg10 m ρ c
theorem W4_arg10 (c : Dev nD) : W4 m ρ c (Proc.devRef .tc main_arg10) = m ((c : Thread nD τ).loc main_arg10) :=
  (W4_of_ne m ρ c main_arg10 (by decide)).trans (W3_arg10 m ρ c)
theorem W5_arg10 (c : Dev nD) : W5 m ρ c (Proc.devRef .tc main_arg10) = m ((c : Thread nD τ).loc main_arg10) := by
  show StableHlo.after hostOps2 (W4 m ρ c) (Proc.devRef .tc main_arg10) = _
  after_results
  exact W4_arg10 m ρ c
theorem W1_arg11 (c : Dev nD) : W1 m ρ c (Proc.devRef .tc main_arg11) = m ((c : Thread nD τ).loc main_arg11) := by
  show StableHlo.after hostOps0 (W0 m ρ c) (Proc.devRef .tc main_arg11) = _
  after_results
theorem W2_arg11 (c : Dev nD) : W2 m ρ c (Proc.devRef .tc main_arg11) = m ((c : Thread nD τ).loc main_arg11) :=
  ((W2_arr m ρ c 8).trans (((dat0 (V1 m ρ) c).arrAt_in 8 rfl _).trans (A_eq0 (V1 m ρ) c 8))).trans (W1_arg11 m ρ c)
theorem W3_arg11 (c : Dev nD) : W3 m ρ c (Proc.devRef .tc main_arg11) = m ((c : Thread nD τ).loc main_arg11) := by
  show StableHlo.after hostOps1 (W2 m ρ c) (Proc.devRef .tc main_arg11) = _
  after_results
  exact W2_arg11 m ρ c
theorem W4_arg11 (c : Dev nD) : W4 m ρ c (Proc.devRef .tc main_arg11) = m ((c : Thread nD τ).loc main_arg11) :=
  (W4_of_ne m ρ c main_arg11 (by decide)).trans (W3_arg11 m ρ c)
theorem W5_arg11 (c : Dev nD) : W5 m ρ c (Proc.devRef .tc main_arg11) = m ((c : Thread nD τ).loc main_arg11) := by
  show StableHlo.after hostOps2 (W4 m ρ c) (Proc.devRef .tc main_arg11) = _
  after_results
  exact W4_arg11 m ρ c
theorem W1_arg12 (c : Dev nD) : W1 m ρ c (Proc.devRef .tc main_arg12) = m ((c : Thread nD τ).loc main_arg12) := by
  show StableHlo.after hostOps0 (W0 m ρ c) (Proc.devRef .tc main_arg12) = _
  after_results
theorem W2_arg12 (c : Dev nD) : W2 m ρ c (Proc.devRef .tc main_arg12) = m ((c : Thread nD τ).loc main_arg12) :=
  (W2_of_ne m ρ c main_arg12 (by decide)).trans (W1_arg12 m ρ c)
theorem W3_arg12 (c : Dev nD) : W3 m ρ c (Proc.devRef .tc main_arg12) = m ((c : Thread nD τ).loc main_arg12) := by
  show StableHlo.after hostOps1 (W2 m ρ c) (Proc.devRef .tc main_arg12) = _
  after_results
  exact W2_arg12 m ρ c
theorem W4_arg12 (c : Dev nD) : W4 m ρ c (Proc.devRef .tc main_arg12) = m ((c : Thread nD τ).loc main_arg12) :=
  (W4_of_ne m ρ c main_arg12 (by decide)).trans (W3_arg12 m ρ c)
theorem W5_arg12 (c : Dev nD) : W5 m ρ c (Proc.devRef .tc main_arg12) = m ((c : Thread nD τ).loc main_arg12) := by
  show StableHlo.after hostOps2 (W4 m ρ c) (Proc.devRef .tc main_arg12) = _
  after_results
  exact W4_arg12 m ρ c
theorem W1_arg13 (c : Dev nD) : W1 m ρ c (Proc.devRef .tc main_arg13) = m ((c : Thread nD τ).loc main_arg13) := by
  show StableHlo.after hostOps0 (W0 m ρ c) (Proc.devRef .tc main_arg13) = _
  after_results
theorem W2_arg13 (c : Dev nD) : W2 m ρ c (Proc.devRef .tc main_arg13) = m ((c : Thread nD τ).loc main_arg13) :=
  (W2_of_ne m ρ c main_arg13 (by decide)).trans (W1_arg13 m ρ c)
theorem W3_arg13 (c : Dev nD) : W3 m ρ c (Proc.devRef .tc main_arg13) = m ((c : Thread nD τ).loc main_arg13) := by
  show StableHlo.after hostOps1 (W2 m ρ c) (Proc.devRef .tc main_arg13) = _
  after_results
  exact W2_arg13 m ρ c
theorem W4_arg13 (c : Dev nD) : W4 m ρ c (Proc.devRef .tc main_arg13) = m ((c : Thread nD τ).loc main_arg13) :=
  ((W4_arr m ρ c 3).trans (((dat1 (V3 m ρ) c).arrAt_in 3 rfl _).trans (A_eq1 (V3 m ρ) c 3))).trans (W3_arg13 m ρ c)
theorem W5_arg13 (c : Dev nD) : W5 m ρ c (Proc.devRef .tc main_arg13) = m ((c : Thread nD τ).loc main_arg13) := by
  show StableHlo.after hostOps2 (W4 m ρ c) (Proc.devRef .tc main_arg13) = _
  after_results
  exact W4_arg13 m ρ c
theorem W1_arg14 (c : Dev nD) : W1 m ρ c (Proc.devRef .tc main_arg14) = m ((c : Thread nD τ).loc main_arg14) := by
  show StableHlo.after hostOps0 (W0 m ρ c) (Proc.devRef .tc main_arg14) = _
  after_results
theorem W2_arg14 (c : Dev nD) : W2 m ρ c (Proc.devRef .tc main_arg14) = m ((c : Thread nD τ).loc main_arg14) :=
  (W2_of_ne m ρ c main_arg14 (by decide)).trans (W1_arg14 m ρ c)
theorem W3_arg14 (c : Dev nD) : W3 m ρ c (Proc.devRef .tc main_arg14) = m ((c : Thread nD τ).loc main_arg14) := by
  show StableHlo.after hostOps1 (W2 m ρ c) (Proc.devRef .tc main_arg14) = _
  after_results
  exact W2_arg14 m ρ c
theorem W4_arg14 (c : Dev nD) : W4 m ρ c (Proc.devRef .tc main_arg14) = m ((c : Thread nD τ).loc main_arg14) :=
  (W4_of_ne m ρ c main_arg14 (by decide)).trans (W3_arg14 m ρ c)
theorem W5_arg14 (c : Dev nD) : W5 m ρ c (Proc.devRef .tc main_arg14) = m ((c : Thread nD τ).loc main_arg14) := by
  show StableHlo.after hostOps2 (W4 m ρ c) (Proc.devRef .tc main_arg14) = _
  after_results
  exact W4_arg14 m ρ c
theorem W1_arg15 (c : Dev nD) : W1 m ρ c (Proc.devRef .tc main_arg15) = m ((c : Thread nD τ).loc main_arg15) := by
  show StableHlo.after hostOps0 (W0 m ρ c) (Proc.devRef .tc main_arg15) = _
  after_results
theorem W2_arg15 (c : Dev nD) : W2 m ρ c (Proc.devRef .tc main_arg15) = m ((c : Thread nD τ).loc main_arg15) :=
  (W2_of_ne m ρ c main_arg15 (by decide)).trans (W1_arg15 m ρ c)
theorem W3_arg15 (c : Dev nD) : W3 m ρ c (Proc.devRef .tc main_arg15) = m ((c : Thread nD τ).loc main_arg15) := by
  show StableHlo.after hostOps1 (W2 m ρ c) (Proc.devRef .tc main_arg15) = _
  after_results
  exact W2_arg15 m ρ c
theorem W4_arg15 (c : Dev nD) : W4 m ρ c (Proc.devRef .tc main_arg15) = m ((c : Thread nD τ).loc main_arg15) :=
  ((W4_arr m ρ c 5).trans (((dat1 (V3 m ρ) c).arrAt_in 5 rfl _).trans (A_eq1 (V3 m ρ) c 5))).trans (W3_arg15 m ρ c)
theorem W5_arg15 (c : Dev nD) : W5 m ρ c (Proc.devRef .tc main_arg15) = m ((c : Thread nD τ).loc main_arg15) := by
  show StableHlo.after hostOps2 (W4 m ρ c) (Proc.devRef .tc main_arg15) = _
  after_results
  exact W4_arg15 m ρ c
theorem W1_arg16 (c : Dev nD) : W1 m ρ c (Proc.devRef .tc main_arg16) = m ((c : Thread nD τ).loc main_arg16) := by
  show StableHlo.after hostOps0 (W0 m ρ c) (Proc.devRef .tc main_arg16) = _
  after_results
theorem W2_arg16 (c : Dev nD) : W2 m ρ c (Proc.devRef .tc main_arg16) = m ((c : Thread nD τ).loc main_arg16) :=
  (W2_of_ne m ρ c main_arg16 (by decide)).trans (W1_arg16 m ρ c)
theorem W3_arg16 (c : Dev nD) : W3 m ρ c (Proc.devRef .tc main_arg16) = m ((c : Thread nD τ).loc main_arg16) := by
  show StableHlo.after hostOps1 (W2 m ρ c) (Proc.devRef .tc main_arg16) = _
  after_results
  exact W2_arg16 m ρ c
theorem W4_arg16 (c : Dev nD) : W4 m ρ c (Proc.devRef .tc main_arg16) = m ((c : Thread nD τ).loc main_arg16) :=
  (W4_of_ne m ρ c main_arg16 (by decide)).trans (W3_arg16 m ρ c)
theorem W5_arg16 (c : Dev nD) : W5 m ρ c (Proc.devRef .tc main_arg16) = m ((c : Thread nD τ).loc main_arg16) := by
  show StableHlo.after hostOps2 (W4 m ρ c) (Proc.devRef .tc main_arg16) = _
  after_results
  exact W4_arg16 m ρ c
theorem W1_arg17 (c : Dev nD) : W1 m ρ c (Proc.devRef .tc main_arg17) = m ((c : Thread nD τ).loc main_arg17) := by
  show StableHlo.after hostOps0 (W0 m ρ c) (Proc.devRef .tc main_arg17) = _
  after_results
theorem W2_arg17 (c : Dev nD) : W2 m ρ c (Proc.devRef .tc main_arg17) = m ((c : Thread nD τ).loc main_arg17) :=
  (W2_of_ne m ρ c main_arg17 (by decide)).trans (W1_arg17 m ρ c)
theorem W3_arg17 (c : Dev nD) : W3 m ρ c (Proc.devRef .tc main_arg17) = m ((c : Thread nD τ).loc main_arg17) := by
  show StableHlo.after hostOps1 (W2 m ρ c) (Proc.devRef .tc main_arg17) = _
  after_results
  exact W2_arg17 m ρ c
theorem W4_arg17 (c : Dev nD) : W4 m ρ c (Proc.devRef .tc main_arg17) = m ((c : Thread nD τ).loc main_arg17) :=
  (W4_of_ne m ρ c main_arg17 (by decide)).trans (W3_arg17 m ρ c)
theorem W5_arg17 (c : Dev nD) : W5 m ρ c (Proc.devRef .tc main_arg17) = m ((c : Thread nD τ).loc main_arg17) := by
  show StableHlo.after hostOps2 (W4 m ρ c) (Proc.devRef .tc main_arg17) = _
  after_results
  exact W4_arg17 m ρ c
theorem W1_arg18 (c : Dev nD) : W1 m ρ c (Proc.devRef .tc main_arg18) = m ((c : Thread nD τ).loc main_arg18) := by
  show StableHlo.after hostOps0 (W0 m ρ c) (Proc.devRef .tc main_arg18) = _
  after_results
theorem W2_arg18 (c : Dev nD) : W2 m ρ c (Proc.devRef .tc main_arg18) = m ((c : Thread nD τ).loc main_arg18) :=
  (W2_of_ne m ρ c main_arg18 (by decide)).trans (W1_arg18 m ρ c)
theorem W3_arg18 (c : Dev nD) : W3 m ρ c (Proc.devRef .tc main_arg18) = m ((c : Thread nD τ).loc main_arg18) := by
  show StableHlo.after hostOps1 (W2 m ρ c) (Proc.devRef .tc main_arg18) = _
  after_results
  exact W2_arg18 m ρ c
theorem W4_arg18 (c : Dev nD) : W4 m ρ c (Proc.devRef .tc main_arg18) = m ((c : Thread nD τ).loc main_arg18) :=
  (W4_of_ne m ρ c main_arg18 (by decide)).trans (W3_arg18 m ρ c)
theorem W5_arg18 (c : Dev nD) : W5 m ρ c (Proc.devRef .tc main_arg18) = m ((c : Thread nD τ).loc main_arg18) := by
  show StableHlo.after hostOps2 (W4 m ρ c) (Proc.devRef .tc main_arg18) = _
  after_results
  exact W4_arg18 m ρ c
theorem W1_arg19 (c : Dev nD) : W1 m ρ c (Proc.devRef .tc main_arg19) = m ((c : Thread nD τ).loc main_arg19) := by
  show StableHlo.after hostOps0 (W0 m ρ c) (Proc.devRef .tc main_arg19) = _
  after_results
theorem W2_arg19 (c : Dev nD) : W2 m ρ c (Proc.devRef .tc main_arg19) = m ((c : Thread nD τ).loc main_arg19) :=
  (W2_of_ne m ρ c main_arg19 (by decide)).trans (W1_arg19 m ρ c)
theorem W3_arg19 (c : Dev nD) : W3 m ρ c (Proc.devRef .tc main_arg19) = m ((c : Thread nD τ).loc main_arg19) := by
  show StableHlo.after hostOps1 (W2 m ρ c) (Proc.devRef .tc main_arg19) = _
  after_results
  exact W2_arg19 m ρ c
theorem W4_arg19 (c : Dev nD) : W4 m ρ c (Proc.devRef .tc main_arg19) = m ((c : Thread nD τ).loc main_arg19) :=
  (W4_of_ne m ρ c main_arg19 (by decide)).trans (W3_arg19 m ρ c)
theorem W5_arg19 (c : Dev nD) : W5 m ρ c (Proc.devRef .tc main_arg19) = m ((c : Thread nD τ).loc main_arg19) := by
  show StableHlo.after hostOps2 (W4 m ρ c) (Proc.devRef .tc main_arg19) = _
  after_results
  exact W4_arg19 m ρ c

/-! ## The index vectors: the two rows of the edge list -/

/-- Row 0 of the edge list, as a vector: the source node of every edge. -/
theorem W1_v1 (c : Dev nD) : W1 m ρ c (Proc.devRef .tc main_v1)
    = shapeCast S500000 (extractStridedSlice S1x500000 ![0, 0] (m ((c : Thread nD τ).loc main_arg1)) slices_S2x500000_S1x500000_0_0)
        shapeCasts_S1x500000_S500000 := by
  show StableHlo.after hostOps0 (W0 m ρ c) (Proc.devRef .tc main_v1) = _
  after_results
  try rfl

/-- Row 1 of the edge list: the destination node of every edge. -/
theorem W1_v3 (c : Dev nD) : W1 m ρ c (Proc.devRef .tc main_v3)
    = shapeCast S500000 (extractStridedSlice S1x500000 ![1, 0] (m ((c : Thread nD τ).loc main_arg1)) slices_S2x500000_S1x500000_1_0)
        shapeCasts_S1x500000_S500000 := by
  show StableHlo.after hostOps0 (W0 m ρ c) (Proc.devRef .tc main_v3) = _
  after_results
  try rfl

theorem W2_v1 (c : Dev nD) : W2 m ρ c (Proc.devRef .tc main_v1) = W1 m ρ c (Proc.devRef .tc main_v1) :=
  W2_of_ne m ρ c main_v1 (by decide)
theorem W2_v3 (c : Dev nD) : W2 m ρ c (Proc.devRef .tc main_v3) = W1 m ρ c (Proc.devRef .tc main_v3) :=
  W2_of_ne m ρ c main_v3 (by decide)
theorem W4_v1 (c : Dev nD) : W4 m ρ c (Proc.devRef .tc main_v1) = W1 m ρ c (Proc.devRef .tc main_v1) := by
  refine (W4_of_ne m ρ c main_v1 (by decide)).trans ?_
  show StableHlo.after hostOps1 (W2 m ρ c) (Proc.devRef .tc main_v1) = _
  after_results
  exact W2_v1 m ρ c
theorem W4_v3 (c : Dev nD) : W4 m ρ c (Proc.devRef .tc main_v3) = W1 m ρ c (Proc.devRef .tc main_v3) := by
  refine (W4_of_ne m ρ c main_v3 (by decide)).trans ?_
  show StableHlo.after hostOps1 (W2 m ρ c) (Proc.devRef .tc main_v3) = _
  after_results
  exact W2_v3 m ρ c

/-! ## The three launches' results -/

/-- After the first launch the encoding array is the encoder applied to every attribute row. -/
theorem W2_v4 (c : Dev nD) : W2 m ρ c (Proc.devRef .tc main_v4)
    = encArr (m ((c : Thread nD τ).loc main_arg2)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (W2_arr m ρ c 9).trans ((Enc.arr0 (V1 m ρ) c).trans ?_)
  show encArr (W1 m ρ c (Proc.devRef .tc main_arg2)) (W1 m ρ c (Proc.devRef .tc main_arg4)) (W1 m ρ c (Proc.devRef .tc main_arg5))
    (W1 m ρ c (Proc.devRef .tc main_arg6)) (W1 m ρ c (Proc.devRef .tc main_arg7)) (W1 m ρ c (Proc.devRef .tc main_arg8))
    (W1 m ρ c (Proc.devRef .tc main_arg9)) (W1 m ρ c (Proc.devRef .tc main_arg10)) (W1 m ρ c (Proc.devRef .tc main_arg11)) = _
  rw [W1_arg2, W1_arg4, W1_arg5, W1_arg6, W1_arg7, W1_arg8, W1_arg9, W1_arg10, W1_arg11]

/-- After the second launch the new-state array is the state update applied to every node of what that launch found. -/
theorem W4_v19 (c : Dev nD) : W4 m ρ c (Proc.devRef .tc main_v19)
    = gruArr (W3 m ρ c (Proc.devRef .tc main_v16)) (m ((c : Thread nD τ).loc main_arg3))
        (transpose S128x384 [1, 0] (m ((c : Thread nD τ).loc main_arg12)) transposes_S384x128_S128x384_1_0)
        (m ((c : Thread nD τ).loc main_arg13))
        (transpose S128x384 [1, 0] (m ((c : Thread nD τ).loc main_arg14)) transposes_S384x128_S128x384_1_0)
        (m ((c : Thread nD τ).loc main_arg15)) := by
  refine (W4_arr m ρ c 6).trans ((Gru.arr1 (V3 m ρ) c).trans ?_)
  show gruArr (W3 m ρ c (Proc.devRef .tc main_v16)) (W3 m ρ c (Proc.devRef .tc main_arg3)) (W3 m ρ c (Proc.devRef .tc main_v17))
    (W3 m ρ c (Proc.devRef .tc main_arg13)) (W3 m ρ c (Proc.devRef .tc main_v18)) (W3 m ρ c (Proc.devRef .tc main_arg15)) = _
  have e17 : W3 m ρ c (Proc.devRef .tc main_v17)
      = transpose S128x384 [1, 0] (m ((c : Thread nD τ).loc main_arg12)) transposes_S384x128_S128x384_1_0 := by
    show StableHlo.after hostOps1 (W2 m ρ c) (Proc.devRef .tc main_v17) = _
    after_results
    rw [W2_arg12 m ρ c]
  have e18 : W3 m ρ c (Proc.devRef .tc main_v18)
      = transpose S128x384 [1, 0] (m ((c : Thread nD τ).loc main_arg14)) transposes_S384x128_S128x384_1_0 := by
    show StableHlo.after hostOps1 (W2 m ρ c) (Proc.devRef .tc main_v18) = _
    after_results
    rw [W2_arg14 m ρ c]
  rw [e17, e18, W3_arg3, W3_arg13, W3_arg15]

/-- After the third launch the score array is the classifier applied to every edge of what that launch found. -/
theorem W6_v37 (c : Dev nD) : W6 m ρ c (Proc.devRef .tc main_v37)
    = clsArr (W5 m ρ c (Proc.devRef .tc main_v26)) (W5 m ρ c (Proc.devRef .tc main_v33)) (m ((c : Thread nD τ).loc main_arg2))
        (extractStridedSlice S128x128 ![0, 0] (m ((c : Thread nD τ).loc main_arg16)) slices_S288x128_S128x128_0_0)
        (extractStridedSlice S128x128 ![128, 0] (m ((c : Thread nD τ).loc main_arg16)) slices_S288x128_S128x128_128_0)
        (extractStridedSlice S32x128 ![256, 0] (m ((c : Thread nD τ).loc main_arg16)) slices_S288x128_S32x128_256_0)
        (m ((c : Thread nD τ).loc main_arg17)) (m ((c : Thread nD τ).loc main_arg18)) (m ((c : Thread nD τ).loc main_arg19)) := by
  refine (W6_arr m ρ c 9).trans ((Cls.arr2 (V5 m ρ) c).trans ?_)
  show clsArr (W5 m ρ c (Proc.devRef .tc main_v26)) (W5 m ρ c (Proc.devRef .tc main_v33)) (W5 m ρ c (Proc.devRef .tc main_arg2))
    (W5 m ρ c (Proc.devRef .tc main_v34)) (W5 m ρ c (Proc.devRef .tc main_v35)) (W5 m ρ c (Proc.devRef .tc main_v36))
    (W5 m ρ c (Proc.devRef .tc main_arg17)) (W5 m ρ c (Proc.devRef .tc main_arg18)) (W5 m ρ c (Proc.devRef .tc main_arg19)) = _
  have a16 : W4 m ρ c (Proc.devRef .tc main_arg16) = m ((c : Thread nD τ).loc main_arg16) := W4_arg16 m ρ c
  have e34 : W5 m ρ c (Proc.devRef .tc main_v34)
      = extractStridedSlice S128x128 ![0, 0] (m ((c : Thread nD τ).loc main_arg16)) slices_S288x128_S128x128_0_0 := by
    show StableHlo.after hostOps2 (W4 m ρ c) (Proc.devRef .tc main_v34) = _
    after_results
    rw [a16]
  have e35 : W5 m ρ c (Proc.devRef .tc main_v35)
      = extractStridedSlice S128x128 ![128, 0] (m ((c : Thread nD τ).loc main_arg16)) slices_S288x128_S128x128_128_0 := by
    show StableHlo.after hostOps2 (W4 m ρ c) (Proc.devRef .tc main_v35) = _
    after_results
    rw [a16]
  have e36 : W5 m ρ c (Proc.devRef .tc main_v36)
      = extractStridedSlice S32x128 ![256, 0] (m ((c : Thread nD τ).loc main_arg16)) slices_S288x128_S32x128_256_0 := by
    show StableHlo.after hostOps2 (W4 m ρ c) (Proc.devRef .tc main_v36) = _
    after_results
    rw [a16]
  rw [e34, e35, e36, W5_arg2, W5_arg17, W5_arg18, W5_arg19]

end Cert.KernelIdeal.Final

end
-- ==== Proof.LibBroadcastInDim.lean ====
/-
  `broadcast_in_dim` of the small shapes around a column, read at an index: a scalar repeated over any shape reads the
  scalar; a vector `[a]` placed as a column `[a, 1]` reads its entry of the row; a column `[a, 1]` repeated along rows of
  width `b` reads the row's one entry. (The operand's unit axes read coordinate zero, its other axes the result's
  coordinate on the axis they are sent to.)
-/
import Idealize.ShloMosaic.Lib.ValueIdx
import Idealize.ShloMosaic.Lib.Pipeline.Value

noncomputable section

namespace Cert.BroadcastInDim

open Idealize.ShloMosaic Idealize.ShloMosaic.ValueIdx

variable {α : Type}

/-- A scalar repeated over a shape reads the scalar everywhere. -/
theorem scalar_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

/-- A vector `[a]` placed as a column `[a, 1]` reads, at `(i, u)`, its entry `i`. -/
theorem column_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column `[a, 1]` repeated along rows of width `b` reads, at `(p, c)`, the column's entry of row `p`. -/
theorem rows_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.BroadcastInDim

end
-- ==== Proof.LibBiasRow.lean ====
/-
  A bias vector as a row, read at an index: a vector `[b]` placed as the one row of `[1, b]` reads its entry of the
  column; a row `[1, b]` repeated down `a` rows reads, at `(p, q)`, its entry `q`. (A `broadcast_in_dim` reads the
  operand's unit axes at coordinate zero and its other axes at the result's coordinate on the axis they are sent to.)
-/
import Idealize.ShloMosaic.Lib.ValueIdx
import Idealize.ShloMosaic.Lib.Pipeline.Value

noncomputable section

namespace Cert.BiasRow

open Idealize.ShloMosaic Idealize.ShloMosaic.ValueIdx

variable {α : Type}

/-- A vector `[b]` placed as the row of `[1, b]` reads, at `(u, q)`, its entry `q`. -/
theorem row_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row `[1, b]` repeated down `a` rows reads, at `(p, q)`, the row's entry `q`. -/
theorem down_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

end Cert.BiasRow

end
-- ==== Proof.RefNorm.lean ====
/-
  The reference's layer normalisation on an edge array, one entry at a time.

  The reference normalises all 500000 rows at once: row sums divided by 128 give the column of means, which is repeated
  along the rows and subtracted; the same again on the squares gives the variance; the centred array is divided by the
  square root of variance plus a small number, scaled by a gain row, shifted by an offset row and cut at zero. Entry (e, j)
  depends on row e only, and is the row function `Spec.lnReluDiv` of that row. The affine maps before each round read,
  at (e, j), row e against column j.
-/
import proofs.«123659_j53171695124547_2_alg».proof.Proof.Gen.ReferenceIdeal
import proofs.«123659_j53171695124547_2_alg».proof.Proof.Spec
import proofs.«123659_j53171695124547_2_alg».proof.Proof.LibBroadcastInDim
import proofs.«123659_j53171695124547_2_alg».proof.Proof.LibBiasRow
import proofs.«123659_j53171695124547_2_alg».proof.Proof.LibDotSums
import Idealize.ShloMosaic.Lib.ValueIdx
import Idealize.ShloMosaic.Lib.Pipeline.Value
import Idealize.ShloMosaic.PureOps.Ideal.Laws

open scoped BigOperators

noncomputable section

namespace Cert.ReferenceIdeal.Enc

open Idealize.ShloMosaic Idealize.ShloMosaic.ValueIdx Cert.ReferenceIdeal Cert.ReferenceIdeal.Gen Cert.Spec

/-- A column repeated along the rows. -/
def colB (u : FVec Ideal S500000x1 .f32) : FVec Ideal S500000x128 .f32 :=
  broadcastInDim S500000x128 ![0, 1] bcast_S500000x1_S500000x128_0_1 u

/-- A vector of 128 entries laid as a row and repeated down the array. -/
def rowB (g : FVec Ideal S128 .f32) : FVec Ideal S500000x128 .f32 :=
  broadcastInDim S500000x128 ![0, 1] bcast_S1x128_S500000x128_0_1 (broadcastInDim S1x128 ![1] bcast_S128_S1x128_1 g)

/-- The column of row means: the row sums divided by 128. -/
def meanH (h : FVec Ideal S500000x128 .f32) : FVec Ideal S500000x1 .f32 :=
  Host.divf (broadcastInDim S500000x1 ![0] bcast_S500000_S500000x1_0
      (Host.reduceAdd h (constant S_ .f32 0x00000000#32) reducesTo_S500000x128_S500000_d1 h_S_))
    (broadcastInDim S500000x1 ![] bcast_S_S500000x1 (constant S_ .f32 0x43000000#32))

/-- The whole normalisation and rectifier, as the reference applies them to an array `h` with gain `g` and offset `b`. -/
def hostNorm (h : FVec Ideal S500000x128 .f32) (g b : FVec Ideal S128 .f32) : FVec Ideal S500000x128 .f32 :=
  maximumf
    (addf (mulf (Host.divf (subf h (colB (meanH h)))
        (colB (Host.sqrt (addf (meanH (mulf (subf h (colB (meanH h))) (subf h (colB (meanH h)))))
          (broadcastInDim S500000x1 ![] bcast_S_S500000x1 (constant S_ .f32 0x3727C5AC#32)))))) (rowB g)) (rowB b))
    (broadcastInDim S500000x128 ![] bcast_S_S500000x128 (constant S_ .f32 0x00000000#32))

theorem colB_apply (u : FVec Ideal S500000x1 .f32) (e : Fin 500000) (j : Fin 128) : colB u (ix2 e j) = u (ix2 e (0 : Fin 1)) :=
  Cert.BroadcastInDim.rows_apply u _ e j

theorem rowB_apply (g : FVec Ideal S128 .f32) (e : Fin 500000) (j : Fin 128) : rowB g (ix2 e j) = g (ix1 j) :=
  (Cert.BiasRow.down_apply _ _ e j).trans (Cert.BiasRow.row_apply g _ 0 j)

/-- The sum of row e, as the reference's reduction from zero takes it. -/
theorem rowsum_apply (y : FVec Ideal S500000x128 .f32) (e : Fin 500000) :
    Host.reduceAdd y (constant S_ .f32 0x00000000#32) reducesTo_S500000x128_S500000_d1 h_S_ (ix1 e) = ∑ k : Fin 128, y (ix2 e k) := by
  simp only [Host.reduceAdd, Ideal.hostReduceAdd_def]
  rw [Ideal.hostReduceAdd_single reducesTo_S500000x128_S500000_d1 (by decide)]
  rw [show (constant (F := Ideal) S_ .f32 0x00000000#32) (Shape.Idx.first h_S_) = 0 from Cert.Consts.ofBits_zero, zero_add]
  exact Finset.sum_congr rfl fun k _ => congrArg y (funext fun a => Fin.ext (by match a with | ⟨0, _⟩ => rfl | ⟨1, _⟩ => rfl))

theorem hostDivf_apply {s : Shape} (a b : FVec Ideal s .f32) (i : s.Idx) : Host.divf a b i = Ideal.div (a i) (b i) := rfl
theorem hostSqrt_apply {s : Shape} (a : FVec Ideal s .f32) (i : s.Idx) : Host.sqrt a i = Ideal.sqrt (a i) := rfl

theorem meanH_apply (h : FVec Ideal S500000x128 .f32) (e : Fin 500000) (u : Fin 1) :
    meanH h (ix2 e u) = mean (fun k => h (ix2 e k)) := by
  unfold meanH mean
  rw [hostDivf_apply, Cert.BroadcastInDim.column_apply, Cert.BroadcastInDim.scalar_apply, rowsum_apply]
  rfl

/-- Entry (e, j) of the normalised, rectified array is the row function of row e. -/
theorem hostNorm_apply (h : FVec Ideal S500000x128 .f32) (g b : FVec Ideal S128 .f32) (e : Fin 500000) (j : Fin 128) :
    hostNorm h g b (ix2 e j) = lnReluDiv (fun k => h (ix2 e k)) (fun k => g (ix1 k)) (fun k => b (ix1 k)) j := by
  unfold hostNorm
  simp only [maximumf_apply, addf_apply, mulf_apply, subf_apply, hostDivf_apply, hostSqrt_apply, colB_apply, rowB_apply,
    meanH_apply, Cert.BroadcastInDim.scalar_apply]
  rfl

/-- The first affine map: entry (e, j) is attribute row e against column j of the weights, plus offset j. -/
theorem affine32_apply (x : FVec Ideal S500000x32 .f32) (W : FVec Ideal S32x128 .f32) (bv : FVec Ideal S128 .f32)
    (e : Fin 500000) (j : Fin 128) :
    addf (Host.dotGeneral dot_S500000x32_S32x128_S500000x128_1_0_0_1_n_n none x W) (rowB bv) (ix2 e j)
      = (∑ k : Fin 32, x (ix2 e k) * W (ix2 k j)) + bv (ix1 j) := by
  rw [addf_apply, rowB_apply]
  exact congrArg (· + bv (ix1 j))
    (Cert.DotSums.dotGeneral_ix2 dot_S500000x32_S32x128_S500000x128_1_0_0_1_n_n none _ rfl rfl rfl rfl rfl rfl rfl rfl x W e j)

/-- The second affine map, with 128 inputs. -/
theorem affine128_apply (x : FVec Ideal S500000x128 .f32) (W : FVec Ideal S128x128 .f32) (bv : FVec Ideal S128 .f32)
    (e : Fin 500000) (j : Fin 128) :
    addf (Host.dotGeneral dot_S500000x128_S128x128_S500000x128_1_0_0_1_n_n none x W) (rowB bv) (ix2 e j)
      = (∑ k : Fin 128, x (ix2 e k) * W (ix2 k j)) + bv (ix1 j) := by
  rw [addf_apply, rowB_apply]
  exact congrArg (· + bv (ix1 j))
    (Cert.DotSums.dotGeneral_ix2 dot_S500000x128_S128x128_S500000x128_1_0_0_1_n_n none _ rfl rfl rfl rfl rfl rfl rfl rfl x W e j)

end Cert.ReferenceIdeal.Enc

end
-- ==== Proof.RefGruOps.lean ====
/-
  The reference's state update on the node array, one entry at a time.

  The reference forms the two affine maps into 384 columns for all 50000 nodes at once, cuts each into three thirds, and
  spells the logistic function as one over one plus the exponential of the negated argument. Entry (v, j) of the result
  depends on row v of the aggregate and previous-state arrays only, and is the row function `Spec.gruRow` of those rows:
  the quotient spelling IS the logistic function, once the float constant one is read as the number one.
-/
import proofs.«123659_j53171695124547_2_alg».proof.Proof.Gen.ReferenceIdeal
import proofs.«123659_j53171695124547_2_alg».proof.Proof.Spec
import proofs.«123659_j53171695124547_2_alg».proof.Proof.LibBroadcastInDim
import proofs.«123659_j53171695124547_2_alg».proof.Proof.LibBiasRow
import proofs.«123659_j53171695124547_2_alg».proof.Proof.LibDotSums
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.ReferenceIdeal.Gru

open Idealize.ShloMosaic Idealize.ShloMosaic.ValueIdx Cert.ReferenceIdeal Cert.ReferenceIdeal.Gen Cert.Spec

/-- An affine map of every node row into 384 columns. -/
def affine384 (x : FVec Ideal S50000x128 .f32) (W : FVec Ideal S128x384 .f32) (bv : FVec Ideal S384 .f32) : FVec Ideal S50000x384 .f32 :=
  addf (Host.dotGeneral dot_S50000x128_S128x384_S50000x384_1_0_0_1_n_n none x W)
    (broadcastInDim S50000x384 ![0, 1] bcast_S1x384_S50000x384_0_1 (broadcastInDim S1x384 ![1] bcast_S384_S1x384_1 bv))

theorem affine384_apply (x : FVec Ideal S50000x128 .f32) (W : FVec Ideal S128x384 .f32) (bv : FVec Ideal S384 .f32)
    (v : Fin 50000) (c : Fin 384) :
    affine384 x W bv (ix2 v c) = (∑ k : Fin 128, x (ix2 v k) * W (ix2 k c)) + bv (ix1 c) := by
  unfold affine384
  rw [addf_apply]
  exact congrArg₂ (· + ·)
    (Cert.DotSums.dotGeneral_ix2 dot_S50000x128_S128x384_S50000x384_1_0_0_1_n_n none _ rfl rfl rfl rfl rfl rfl rfl rfl x W v c)
    ((Cert.BiasRow.down_apply _ _ v c).trans (Cert.BiasRow.row_apply bv _ 0 c))

/-- The float constant one, repeated over the node array. -/
def oneB : FVec Ideal S50000x128 .f32 := broadcastInDim S50000x128 ![] bcast_S_S50000x128 (constant S_ .f32 0x3F800000#32)

theorem oneB_apply (i : S50000x128.Idx) : oneB i = one := Cert.BroadcastInDim.scalar_apply _ _ i

/-- The logistic function as the reference spells it. -/
def sigB (x : FVec Ideal S50000x128 .f32) : FVec Ideal S50000x128 .f32 := Host.divf oneB (addf oneB (Host.exp (Host.negf x)))

theorem sigB_apply (x : FVec Ideal S50000x128 .f32) (i : S50000x128.Idx) : sigB x i = Ideal.logistic (x i) := by
  show Ideal.div (oneB i) (oneB i + Ideal.exp (-(x i))) = _
  rw [oneB_apply]
  show Ideal.div (Ideal.ofBits .f32 0x3F800000#32) (Ideal.ofBits .f32 0x3F800000#32 + Ideal.exp (-(x i))) = _
  rw [Cert.Consts.ofBits_one]
  rfl

theorem third0_apply (g : FVec Ideal S50000x384 .f32) (v : Fin 50000) (j : Fin 128) :
    extractStridedSlice S50000x128 ![0, 0] g slices_S50000x384_S50000x128_0_0 (ix2 v j) = g (ix2 v ⟨j.val, by omega⟩) :=
  slice2_axis1_apply 0 g _ v j ⟨j.val, by omega⟩ (by simp)
theorem third1_apply (g : FVec Ideal S50000x384 .f32) (v : Fin 50000) (j : Fin 128) :
    extractStridedSlice S50000x128 ![0, 128] g slices_S50000x384_S50000x128_0_128 (ix2 v j) = g (ix2 v ⟨128 + j.val, by omega⟩) :=
  slice2_axis1_apply 128 g _ v j ⟨128 + j.val, by omega⟩ rfl
theorem third2_apply (g : FVec Ideal S50000x384 .f32) (v : Fin 50000) (j : Fin 128) :
    extractStridedSlice S50000x128 ![0, 256] g slices_S50000x384_S50000x128_0_256 (ix2 v j) = g (ix2 v ⟨256 + j.val, by omega⟩) :=
  slice2_axis1_apply 256 g _ v j ⟨256 + j.val, by omega⟩ rfl

theorem hostTanh_apply {s : Shape} (a : FVec Ideal s .f32) (i : s.Idx) : Host.tanh a i = Ideal.tanh (a i) := rfl

/-- The whole update, as the reference applies it to the aggregate array `ag` and the previous-state array `hp`. -/
def hostGru (ag hp : FVec Ideal S50000x128 .f32) (Wi : FVec Ideal S128x384 .f32) (bi : FVec Ideal S384 .f32)
    (Wh : FVec Ideal S128x384 .f32) (bh : FVec Ideal S384 .f32) : FVec Ideal S50000x128 .f32 :=
  addf (mulf (subf oneB
        (sigB (addf (extractStridedSlice S50000x128 ![0, 128] (affine384 ag Wi bi) slices_S50000x384_S50000x128_0_128)
          (extractStridedSlice S50000x128 ![0, 128] (affine384 hp Wh bh) slices_S50000x384_S50000x128_0_128))))
      (Host.tanh (addf (extractStridedSlice S50000x128 ![0, 256] (affine384 ag Wi bi) slices_S50000x384_S50000x128_0_256)
        (mulf (sigB (addf (extractStridedSlice S50000x128 ![0, 0] (affine384 ag Wi bi) slices_S50000x384_S50000x128_0_0)
            (extractStridedSlice S50000x128 ![0, 0] (affine384 hp Wh bh) slices_S50000x384_S50000x128_0_0)))
          (extractStridedSlice S50000x128 ![0, 256] (affine384 hp Wh bh) slices_S50000x384_S50000x128_0_256)))))
    (mulf (sigB (addf (extractStridedSlice S50000x128 ![0, 128] (affine384 ag Wi bi) slices_S50000x384_S50000x128_0_128)
        (extractStridedSlice S50000x128 ![0, 128] (affine384 hp Wh bh) slices_S50000x384_S50000x128_0_128))) hp)

/-- Entry (v, j) of the update is the row function of rows v. -/
theorem hostGru_apply (ag hp : FVec Ideal S50000x128 .f32) (Wi : FVec Ideal S128x384 .f32) (bi : FVec Ideal S384 .f32)
    (Wh : FVec Ideal S128x384 .f32) (bh : FVec Ideal S384 .f32) (v : Fin 50000) (j : Fin 128) :
    hostGru ag hp Wi bi Wh bh (ix2 v j)
      = gruRow (fun k => ag (ix2 v k)) (fun k => hp (ix2 v k)) (fun k c => Wi (ix2 k c)) (fun c => bi (ix1 c))
          (fun k c => Wh (ix2 k c)) (fun c => bh (ix1 c)) j := by
  unfold hostGru
  simp only [addf_apply, mulf_apply, subf_apply, oneB_apply, sigB_apply, hostTanh_apply, third0_apply, third1_apply,
    third2_apply, affine384_apply]
  rfl

end Cert.ReferenceIdeal.Gru

end
-- ==== Proof.RefClsOps.lean ====
/-
  The reference's classifier on the edge array, one entry at a time.

  The reference joins the two gathered-state arrays and the attribute array side by side into rows of 288 entries and
  multiplies by the whole first weight matrix; a sum over 288 terms is the sum over the three pieces, each piece of the
  joined row read from its own array and the matching rows of the weight matrix. Then offset, rectifier, the product with
  the one-column second weight matrix, and its offset. Entry (e, 0) is the row function `Spec.clsRow` of rows e.
-/
import proofs.«123659_j53171695124547_2_alg».proof.Proof.Gen.ReferenceIdeal
import proofs.«123659_j53171695124547_2_alg».proof.Proof.Spec
import proofs.«123659_j53171695124547_2_alg».proof.Proof.LibBroadcastInDim
import proofs.«123659_j53171695124547_2_alg».proof.Proof.LibBiasRow
import proofs.«123659_j53171695124547_2_alg».proof.Proof.LibDotSums
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.ReferenceIdeal.Cls

open Idealize.ShloMosaic Idealize.ShloMosaic.ValueIdx Cert.ReferenceIdeal Cert.ReferenceIdeal.Gen Cert.Spec

/-- The three arrays joined side by side. -/
def joined (hs hd : FVec Ideal S500000x128 .f32) (ea : FVec Ideal S500000x32 .f32) : FVec Ideal S500000x288 .f32 :=
  concatenate S500000x288 1 [⟨S500000x128, hs⟩, ⟨S500000x128, hd⟩, ⟨S500000x32, ea⟩]
    concatenates_S500000x128_S500000x128_S500000x32_S500000x288_d1

/-- The first 128 entries of a joined row are the first array's row. -/
theorem joined_apply0 (hs hd : FVec Ideal S500000x128 .f32) (ea : FVec Ideal S500000x32 .f32) (e : Fin 500000) (i : Fin 128) :
    joined hs hd ea (ix2 e (⟨i.val, by omega⟩ : Fin 288)) = hs (ix2 e i) := by
  unfold joined
  exact concatenate_apply_piece (t := S500000x288) (1 : Fin 2) [⟨S500000x128, hs⟩, ⟨S500000x128, hd⟩, ⟨S500000x32, ea⟩]
    concatenates_S500000x128_S500000x128_S500000x32_S500000x288_d1 (ix2 e (⟨i.val, by omega⟩ : Fin 288)) 0 (by show 0 < 3; omega)
    S500000x128 hs rfl rfl 0 rfl (ix2 e i)
    (fun b => match b with | ⟨0, _⟩ => fun _ => rfl | ⟨1, _⟩ => fun hb => absurd rfl hb)
    (by show 0 + i.val = i.val; omega)

/-- The next 128 are the second array's row. -/
theorem joined_apply1 (hs hd : FVec Ideal S500000x128 .f32) (ea : FVec Ideal S500000x32 .f32) (e : Fin 500000) (i : Fin 128) :
    joined hs hd ea (ix2 e (⟨128 + i.val, by omega⟩ : Fin 288)) = hd (ix2 e i) := by
  unfold joined
  exact concatenate_apply_piece (t := S500000x288) (1 : Fin 2) [⟨S500000x128, hs⟩, ⟨S500000x128, hd⟩, ⟨S500000x32, ea⟩]
    concatenates_S500000x128_S500000x128_S500000x32_S500000x288_d1 (ix2 e (⟨128 + i.val, by omega⟩ : Fin 288)) 1 (by show 1 < 3; omega)
    S500000x128 hd rfl rfl 128 rfl (ix2 e i)
    (fun b => match b with | ⟨0, _⟩ => fun _ => rfl | ⟨1, _⟩ => fun hb => absurd rfl hb)
    rfl

/-- The last 32 are the attribute row. -/
theorem joined_apply2 (hs hd : FVec Ideal S500000x128 .f32) (ea : FVec Ideal S500000x32 .f32) (e : Fin 500000) (i : Fin 32) :
    joined hs hd ea (ix2 e (⟨256 + i.val, by omega⟩ : Fin 288)) = ea (ix2 e i) := by
  unfold joined
  exact concatenate_apply_piece (t := S500000x288) (1 : Fin 2) [⟨S500000x128, hs⟩, ⟨S500000x128, hd⟩, ⟨S500000x32, ea⟩]
    concatenates_S500000x128_S500000x128_S500000x32_S500000x288_d1 (ix2 e (⟨256 + i.val, by omega⟩ : Fin 288)) 2 (by show 2 < 3; omega)
    S500000x32 ea rfl rfl 256 rfl (ix2 e i)
    (fun b => match b with | ⟨0, _⟩ => fun _ => rfl | ⟨1, _⟩ => fun hb => absurd rfl hb)
    rfl

/-- The hidden layer on every edge, as the reference spells it. -/
def hidden (hs hd : FVec Ideal S500000x128 .f32) (ea : FVec Ideal S500000x32 .f32) (Wc1 : FVec Ideal S288x128 .f32)
    (bc1 : FVec Ideal S128 .f32) : FVec Ideal S500000x128 .f32 :=
  maximumf
    (addf (Host.dotGeneral dot_S500000x288_S288x128_S500000x128_1_0_0_1_n_n none (joined hs hd ea) Wc1)
      (broadcastInDim S500000x128 ![0, 1] bcast_S1x128_S500000x128_0_1 (broadcastInDim S1x128 ![1] bcast_S128_S1x128_1 bc1)))
    (broadcastInDim S500000x128 ![] bcast_S_S500000x128 (constant S_ .f32 0x00000000#32))

/-- Its entry (e, k): the three partial products against the three slabs of the weight matrix. -/
theorem hidden_apply (hs hd : FVec Ideal S500000x128 .f32) (ea : FVec Ideal S500000x32 .f32) (Wc1 : FVec Ideal S288x128 .f32)
    (bc1 : FVec Ideal S128 .f32) (e : Fin 500000) (k : Fin 128) :
    hidden hs hd ea Wc1 bc1 (ix2 e k)
      = max ((((∑ i : Fin 128, hs (ix2 e i) * Wc1 (ix2 (⟨i.val, by omega⟩ : Fin 288) k))
            + ∑ i : Fin 128, hd (ix2 e i) * Wc1 (ix2 (⟨128 + i.val, by omega⟩ : Fin 288) k))
          + ∑ i : Fin 32, ea (ix2 e i) * Wc1 (ix2 (⟨256 + i.val, by omega⟩ : Fin 288) k)) + bc1 (ix1 k)) z0 := by
  unfold hidden
  rw [maximumf_apply, addf_apply]
  refine congrArg₂ max (congrArg₂ (· + ·) ?_ ((Cert.BiasRow.down_apply _ _ e k).trans (Cert.BiasRow.row_apply bc1 _ 0 k)))
    (Cert.BroadcastInDim.scalar_apply _ _ _)
  refine (Cert.DotSums.dotGeneral_ix2 dot_S500000x288_S288x128_S500000x128_1_0_0_1_n_n none _ rfl rfl rfl rfl rfl rfl rfl rfl
    (joined hs hd ea) Wc1 e k).trans ?_
  rw [sum_288]
  simp only [joined_apply0, joined_apply1, joined_apply2]

/-- The whole classifier, as the reference applies it. -/
def hostCls (hs hd : FVec Ideal S500000x128 .f32) (ea : FVec Ideal S500000x32 .f32) (Wc1 : FVec Ideal S288x128 .f32)
    (bc1 : FVec Ideal S128 .f32) (w2 : FVec Ideal S128x1 .f32) (bc2 : FVec Ideal S1 .f32) : FVec Ideal S500000x1 .f32 :=
  addf (Host.dotGeneral dot_S500000x128_S128x1_S500000x1_1_0_0_1_n_n none (hidden hs hd ea Wc1 bc1) w2)
    (broadcastInDim S500000x1 ![0, 1] bcast_S1x1_S500000x1_0_1 (broadcastInDim S1x1 ![1] bcast_S1_S1x1_1 bc2))

/-- Entry (e, 0) of the classifier is the row function of rows e, the three slabs of the first weight matrix read at
    their row offsets. -/
theorem hostCls_apply (hs hd : FVec Ideal S500000x128 .f32) (ea : FVec Ideal S500000x32 .f32) (Wc1 : FVec Ideal S288x128 .f32)
    (bc1 : FVec Ideal S128 .f32) (w2 : FVec Ideal S128x1 .f32) (bc2 : FVec Ideal S1 .f32) (e : Fin 500000) :
    hostCls hs hd ea Wc1 bc1 w2 bc2 (ix2 e (0 : Fin 1))
      = clsRow (fun k => hs (ix2 e k)) (fun k => hd (ix2 e k)) (fun k => ea (ix2 e k))
          (fun i k => Wc1 (ix2 (⟨i.val, by omega⟩ : Fin 288) k)) (fun i k => Wc1 (ix2 (⟨128 + i.val, by omega⟩ : Fin 288) k))
          (fun i k => Wc1 (ix2 (⟨256 + i.val, by omega⟩ : Fin 288) k)) (fun j => bc1 (ix1 j))
          (fun k => w2 (ix2 k (0 : Fin 1))) (bc2 (ix1 (0 : Fin 1))) := by
  unfold hostCls clsRow
  rw [addf_apply]
  refine congrArg₂ (· + ·) ?_ ((Cert.BiasRow.down_apply _ _ e 0).trans (Cert.BiasRow.row_apply bc2 _ 0 0))
  refine (Cert.DotSums.dotGeneral_ix2 dot_S500000x128_S128x1_S500000x1_1_0_0_1_n_n none _ rfl rfl rfl rfl rfl rfl rfl rfl
    (hidden hs hd ea Wc1 bc1) w2 e 0).trans ?_
  exact Finset.sum_congr rfl fun k _ => congrArg (· * w2 (ix2 k (0 : Fin 1))) (hidden_apply hs hd ea Wc1 bc1 e k)

end Cert.ReferenceIdeal.Cls

end
-- ==== Proof.RefStages.lean ====
/-
  The reference program, stage by stage, as the three row-wise functions of whole arrays.

  Its encoder is two rounds of "affine map, normalise, rectify" on the edge array; its state update the gated mix on the
  node array; its classifier the joined hidden layer and the score. Each stage's term, read off the program's own run, is
  the corresponding whole-array function of `Spec`: the encoder by the law that joins quotient-by-root and reciprocal
  root, the classifier by the three-part sum, the update by reading the quotient spelling of the logistic function.
-/
import proofs.«123659_j53171695124547_2_alg».proof.Proof.Gen.ReferenceIdeal.Read
import proofs.«123659_j53171695124547_2_alg».proof.Proof.RefNorm
import proofs.«123659_j53171695124547_2_alg».proof.Proof.RefGruOps
import proofs.«123659_j53171695124547_2_alg».proof.Proof.RefClsOps
import proofs.«123659_j53171695124547_2_alg».proof.Proof.SpecArrays

set_option maxRecDepth 16384

open scoped BigOperators

noncomputable section

namespace Cert.ReferenceIdeal.Stages

open Idealize.ShloMosaic Idealize.ShloMosaic.ValueIdx Cert.ReferenceIdeal Cert.ReferenceIdeal.Gen Cert.ReferenceIdeal.Read Cert.Spec

/-- The encoder stage is the encoder applied to every attribute row. -/
theorem enc_eq (x2 : FVec Ideal S500000x32 .f32) (x4 : FVec Ideal S32x128 .f32) (x5 x6 x7 : FVec Ideal S128 .f32)
    (x8 : FVec Ideal S128x128 .f32) (x9 x10 x11 : FVec Ideal S128 .f32) :
    val_main_v61 (F := Ideal) x2 x4 x5 x6 x7 x8 x9 x10 x11 = encArr x2 x4 x5 x6 x7 x8 x9 x10 x11 := by
  have e : val_main_v61 (F := Ideal) x2 x4 x5 x6 x7 x8 x9 x10 x11
      = Enc.hostNorm (addf (Host.dotGeneral dot_S500000x128_S128x128_S500000x128_1_0_0_1_n_n none
          (Enc.hostNorm (addf (Host.dotGeneral dot_S500000x32_S32x128_S500000x128_1_0_0_1_n_n none x2 x4) (Enc.rowB x5)) x6 x7) x8)
          (Enc.rowB x9)) x10 x11 := rfl
  rw [e]
  funext i
  obtain ⟨p, q, rfl⟩ : ∃ (p : Fin 500000) (q : Fin 128), i = ix2 p q := ⟨i 0, i 1, eq_ix2 i⟩
  rw [Enc.hostNorm_apply, lnReluDiv_eq]
  show _ = encRow _ _ _ _ _ _ _ _ _ q
  unfold encRow
  refine congrFun (congrArg (fun f => lnRelu f _ _) (funext fun j' => ?_)) q
  rw [Enc.affine128_apply]
  refine congrArg (· + x9 (ix1 j')) (Finset.sum_congr rfl fun k _ => congrArg (· * x8 (ix2 k j')) ?_)
  rw [Enc.hostNorm_apply, lnReluDiv_eq]
  exact congrFun (congrArg (fun f => lnRelu f _ _) (funext fun j'' => Enc.affine32_apply x2 x4 x5 p j'')) k

/-- The state-update stage is the update applied to every node, read off the aggregate stage. -/
theorem gru_eq (x1 : IVec S2x500000 32) (x2 : FVec Ideal S500000x32 .f32) (x3 : FVec Ideal S50000x128 .f32) (x4 : FVec Ideal S32x128 .f32)
    (x5 x6 x7 : FVec Ideal S128 .f32) (x8 : FVec Ideal S128x128 .f32) (x9 x10 x11 : FVec Ideal S128 .f32)
    (x12 : FVec Ideal S384x128 .f32) (x13 : FVec Ideal S384 .f32) (x14 : FVec Ideal S384x128 .f32) (x15 : FVec Ideal S384 .f32) :
    val_main_v111 (F := Ideal) x1 x2 x3 x4 x5 x6 x7 x8 x9 x10 x11 x12 x13 x14 x15
      = gruArr (val_main_v73 (F := Ideal) x1 x2 x4 x5 x6 x7 x8 x9 x10 x11) x3
          (transpose S128x384 [1, 0] x12 transposes_S384x128_S128x384_1_0) x13
          (transpose S128x384 [1, 0] x14 transposes_S384x128_S128x384_1_0) x15 := by
  have e : val_main_v111 (F := Ideal) x1 x2 x3 x4 x5 x6 x7 x8 x9 x10 x11 x12 x13 x14 x15
      = Gru.hostGru (val_main_v73 (F := Ideal) x1 x2 x4 x5 x6 x7 x8 x9 x10 x11) x3
          (transpose S128x384 [1, 0] x12 transposes_S384x128_S128x384_1_0) x13
          (transpose S128x384 [1, 0] x14 transposes_S384x128_S128x384_1_0) x15 := rfl
  rw [e]
  funext i
  obtain ⟨p, q, rfl⟩ : ∃ (p : Fin 50000) (q : Fin 128), i = ix2 p q := ⟨i 0, i 1, eq_ix2 i⟩
  exact Gru.hostGru_apply _ _ _ _ _ _ p q

/-- The classifier stage is the classifier applied to every edge, read off the two gathered stages; the three slabs of
    the first weight matrix are its rows 0–127, 128–255 and 256–287. -/
theorem cls_eq (x1 : IVec S2x500000 32) (x2 : FVec Ideal S500000x32 .f32) (x3 : FVec Ideal S50000x128 .f32) (x4 : FVec Ideal S32x128 .f32)
    (x5 x6 x7 : FVec Ideal S128 .f32) (x8 : FVec Ideal S128x128 .f32) (x9 x10 x11 : FVec Ideal S128 .f32)
    (x12 : FVec Ideal S384x128 .f32) (x13 : FVec Ideal S384 .f32) (x14 : FVec Ideal S384x128 .f32) (x15 : FVec Ideal S384 .f32)
    (x16 : FVec Ideal S288x128 .f32) (x17 : FVec Ideal S128 .f32) (x18 : FVec Ideal S128x1 .f32) (x19 : FVec Ideal S1 .f32)
    (h0 : S288x128.Slices ![0, 0] S128x128) (h1 : S288x128.Slices ![128, 0] S128x128) (h2 : S288x128.Slices ![256, 0] S32x128) :
    val_main_v135 (F := Ideal) x1 x2 x3 x4 x5 x6 x7 x8 x9 x10 x11 x12 x13 x14 x15 x16 x17 x18 x19
      = clsArr (val_main_v118 (F := Ideal) x1 x2 x3 x4 x5 x6 x7 x8 x9 x10 x11 x12 x13 x14 x15) (val_main_v125 (F := Ideal) x1 x2 x3 x4 x5 x6 x7 x8 x9 x10 x11 x12 x13 x14 x15) x2
          (extractStridedSlice S128x128 ![0, 0] x16 h0) (extractStridedSlice S128x128 ![128, 0] x16 h1)
          (extractStridedSlice S32x128 ![256, 0] x16 h2) x17 x18 x19 := by
  have e : val_main_v135 (F := Ideal) x1 x2 x3 x4 x5 x6 x7 x8 x9 x10 x11 x12 x13 x14 x15 x16 x17 x18 x19
      = Cls.hostCls (val_main_v118 (F := Ideal) x1 x2 x3 x4 x5 x6 x7 x8 x9 x10 x11 x12 x13 x14 x15) (val_main_v125 (F := Ideal) x1 x2 x3 x4 x5 x6 x7 x8 x9 x10 x11 x12 x13 x14 x15) x2 x16 x17 x18 x19 := rfl
  rw [e]
  funext i
  obtain ⟨p, q, rfl⟩ : ∃ (p : Fin 500000) (q : Fin 1), i = ix2 p q := ⟨i 0, i 1, eq_ix2 i⟩
  obtain rfl : q = 0 := Subsingleton.elim _ _
  rw [Cls.hostCls_apply]
  show _ = clsRow _ _ _ _ _ _ _ _ _
  have s0 : (fun (i : Fin 128) (k : Fin 128) => x16 (ix2 (⟨i.val, by omega⟩ : Fin 288) k))
      = fun i k => extractStridedSlice S128x128 ![0, 0] x16 h0 (ix2 i k) :=
    funext fun i => funext fun k => (slice2_axis0_apply 0 x16 h0 i k ⟨i.val, by omega⟩ (by simp)).symm
  have s1 : (fun (i : Fin 128) (k : Fin 128) => x16 (ix2 (⟨128 + i.val, by omega⟩ : Fin 288) k))
      = fun i k => extractStridedSlice S128x128 ![128, 0] x16 h1 (ix2 i k) :=
    funext fun i => funext fun k => (slice2_axis0_apply 128 x16 h1 i k ⟨128 + i.val, by omega⟩ rfl).symm
  have s2 : (fun (i : Fin 32) (k : Fin 128) => x16 (ix2 (⟨256 + i.val, by omega⟩ : Fin 288) k))
      = fun i k => extractStridedSlice S32x128 ![256, 0] x16 h2 (ix2 i k) :=
    funext fun i => funext fun k => (slice2_axis0_apply 256 x16 h2 i k ⟨256 + i.val, by omega⟩ rfl).symm
  rw [s0, s1, s2]

end Cert.ReferenceIdeal.Stages

end
-- ==== Proof.Glue.lean ====
/-
  The two programs compute one function.

  Stage by stage, what the kernel program's fold holds at a boundary is what the reference's stage computes from the same
  arguments: the encoding (both are the encoder applied to every attribute row), hence the aggregate (the same scatter-mean
  of equal encodings), hence the new state (both are the update applied to every node), hence the two gathered arrays (the
  same gathers of equal states), hence the scores (both are the classifier applied to every edge).
-/
import proofs.«123659_j53171695124547_2_alg».proof.Proof.KernelValue
import proofs.«123659_j53171695124547_2_alg».proof.Proof.RefStages

set_option maxRecDepth 16384

noncomputable section

namespace Cert.Glue

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)

set_option maxHeartbeats 4000000 in
/-- The aggregate the second launch finds is the reference's aggregate stage. -/
theorem aggr_eq (c : Dev Cert.KernelIdeal.nD) : Cert.KernelIdeal.Gen.W3 m ρ c (Proc.devRef .tc Cert.KernelIdeal.main_v16)
    = Cert.ReferenceIdeal.Read.val_main_v73 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) := by
  generalize hX : Cert.ReferenceIdeal.Read.val_main_v73 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) = X
  show StableHlo.after Cert.KernelIdeal.Gen.hostOps1 (Cert.KernelIdeal.Gen.W2 m ρ c) (Proc.devRef .tc Cert.KernelIdeal.main_v16) = X
  after_results
  rw [← hX, Cert.KernelIdeal.Final.W2_v4 m ρ c, Cert.KernelIdeal.Final.W2_v1 m ρ c, Cert.KernelIdeal.Final.W1_v1 m ρ c, ← Cert.ReferenceIdeal.Stages.enc_eq]
  rfl

/-- The new-state array after the second launch is the reference's state-update stage. -/
theorem hnew_eq (c : Dev Cert.KernelIdeal.nD) : Cert.KernelIdeal.Gen.W4 m ρ c (Proc.devRef .tc Cert.KernelIdeal.main_v19)
    = Cert.ReferenceIdeal.Read.val_main_v111 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) := by
  rw [Cert.KernelIdeal.Final.W4_v19 m ρ c, aggr_eq m ρ c]
  exact (Cert.ReferenceIdeal.Stages.gru_eq (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15))).symm

set_option maxHeartbeats 4000000 in
/-- The source-gathered array the third launch finds is the reference's. -/
theorem hsrc_eq (c : Dev Cert.KernelIdeal.nD) : Cert.KernelIdeal.Gen.W5 m ρ c (Proc.devRef .tc Cert.KernelIdeal.main_v26)
    = Cert.ReferenceIdeal.Read.val_main_v118 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) := by
  generalize hX : Cert.ReferenceIdeal.Read.val_main_v118 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) = X
  show StableHlo.after Cert.KernelIdeal.Gen.hostOps2 (Cert.KernelIdeal.Gen.W4 m ρ c) (Proc.devRef .tc Cert.KernelIdeal.main_v26) = X
  after_results
  rw [← hX, hnew_eq m ρ c, Cert.KernelIdeal.Final.W4_v1 m ρ c, Cert.KernelIdeal.Final.W1_v1 m ρ c]
  rfl

set_option maxHeartbeats 4000000 in
/-- The destination-gathered array the third launch finds is the reference's. -/
theorem hdst_eq (c : Dev Cert.KernelIdeal.nD) : Cert.KernelIdeal.Gen.W5 m ρ c (Proc.devRef .tc Cert.KernelIdeal.main_v33)
    = Cert.ReferenceIdeal.Read.val_main_v125 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) := by
  generalize hX : Cert.ReferenceIdeal.Read.val_main_v125 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) = X
  show StableHlo.after Cert.KernelIdeal.Gen.hostOps2 (Cert.KernelIdeal.Gen.W4 m ρ c) (Proc.devRef .tc Cert.KernelIdeal.main_v33) = X
  after_results
  rw [← hX, hnew_eq m ρ c, Cert.KernelIdeal.Final.W4_v3 m ρ c, Cert.KernelIdeal.Final.W1_v3 m ρ c]
  rfl

/-- The score array the kernel program ends with is the reference's result. -/
theorem result_eq (c : Dev Cert.KernelIdeal.nD) : Cert.KernelIdeal.Gen.W6 m ρ c (Proc.devRef .tc Cert.KernelIdeal.main_v37)
    = Cert.ReferenceIdeal.Read.val_main_v135 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) := by
  rw [Cert.KernelIdeal.Final.W6_v37 m ρ c, hsrc_eq m ρ c, hdst_eq m ρ c]
  exact (Cert.ReferenceIdeal.Stages.cls_eq (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19))
    Cert.KernelIdeal.Gen.slices_S288x128_S128x128_0_0 Cert.KernelIdeal.Gen.slices_S288x128_S128x128_128_0 Cert.KernelIdeal.Gen.slices_S288x128_S32x128_256_0).symm

end Cert.Glue

end
-- ==== Proof.lean ====
/-
  The certificate of the edge-encoder / state-update / classifier network: a kernel program of three launches (an edge
  encoder with two layer normalisations, a gated state update, a split-matrix classifier) joined by host scatter and
  gather operations, against its plain reference.

  Over the extended reals both programs compute, for every edge, the classifier's row function of the gathered new states
  and the edge's attributes; the new state of a node is the gated update of its scatter-mean aggregate; the aggregate is
  built from the encoder's row function of every edge's attributes. The two programs differ in three spellings only:
  the kernel multiplies by the reciprocal square root where the reference divides by the square root (equal because the
  radicand, a mean of squares plus a positive constant, is positive for every extended-real row); the kernel applies the
  logistic function where the reference writes one over one plus the exponential of the negated argument (the same
  function); and the kernel adds three partial products where the reference multiplies the joined 288-entry row at once
  (one sum in three parts). The scatter and gather steps are the same operations of equal arrays. The precondition that
  the inputs are finite is never needed.

  The frames of the two kernel programs are the generated ones; the reference's frame is its generated run with the
  result dropped; no operation was rewritten by the idealisation, so nothing is owed for it.
-/
import proofs.«123659_j53171695124547_2_alg».proof.Defs
import proofs.«123659_j53171695124547_2_alg».proof.Proof.Gen.Kernel
import proofs.«123659_j53171695124547_2_alg».proof.Proof.Gen.Kernel.Skeleton
import proofs.«123659_j53171695124547_2_alg».proof.Proof.Gen.Kernel.Launch
import proofs.«123659_j53171695124547_2_alg».proof.Proof.Gen.Kernel.Points
import proofs.«123659_j53171695124547_2_alg».proof.Proof.Gen.Kernel.Frame
import proofs.«123659_j53171695124547_2_alg».proof.Proof.Gen.KernelIdeal
import proofs.«123659_j53171695124547_2_alg».proof.Proof.Gen.KernelIdeal.Skeleton
import proofs.«123659_j53171695124547_2_alg».proof.Proof.Gen.KernelIdeal.Launch
import proofs.«123659_j53171695124547_2_alg».proof.Proof.Gen.KernelIdeal.Points
import proofs.«123659_j53171695124547_2_alg».proof.Proof.Gen.KernelIdeal.Frame
import proofs.«123659_j53171695124547_2_alg».proof.Proof.Gen.ReferenceIdeal
import proofs.«123659_j53171695124547_2_alg».proof.Proof.Gen.ReferenceIdeal.Run
import proofs.«123659_j53171695124547_2_alg».proof.Proof.Gen.ReferenceIdeal.Read
import proofs.«123659_j53171695124547_2_alg».proof.Proof.Gen.Pre_finite_inputs
import proofs.«123659_j53171695124547_2_alg».proof.Proof.Glue
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs, and leaves its arguments as launched. -/
theorem frame_k : @Cert.frame_Kernel Cert.Kernel.Gen.facts Cert.Pre_finite_inputs.Gen.facts :=
  fun m ρ _ => Cert.Kernel.Gen.frame m ρ

/-- So does its idealisation. -/
theorem frame_ki : @Cert.frame_KernelIdeal Cert.KernelIdeal.Gen.facts Cert.Pre_finite_inputs.Gen.facts :=
  fun m ρ _ => Cert.KernelIdeal.Gen.frame m ρ

/-- So does the reference: its run, with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments the two idealised programs end with equal score arrays: the kernel program's
    is the last boundary's contents at the result buffer, the reference's its run's term, and the two are one function
    of the arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W6 m ρ c (Proc.devRef .tc Cert.KernelIdeal.main_v37), ?_, ?_⟩
  · refine (θ_run Cert.KernelIdeal.defs _ _).mono (fun r h c => ?_) (Cert.KernelIdeal.Final.run_final (F := Ideal) m ρ)
    exact ⟨h c _ (Cert.KernelIdeal.Gen.mem_uc Cert.KernelIdeal.main_v37 (by decide)),
      (h c _ (Cert.KernelIdeal.Gen.mem_uc Cert.KernelIdeal.main_arg0 (by decide))).trans (Cert.KernelIdeal.Gen.W6_main_arg0 m ρ c),
      (h c _ (Cert.KernelIdeal.Gen.mem_uc Cert.KernelIdeal.main_arg1 (by decide))).trans (Cert.KernelIdeal.Gen.W6_main_arg1 m ρ c),
      (h c _ (Cert.KernelIdeal.Gen.mem_uc Cert.KernelIdeal.main_arg2 (by decide))).trans (Cert.KernelIdeal.Gen.W6_main_arg2 m ρ c),
      (h c _ (Cert.KernelIdeal.Gen.mem_uc Cert.KernelIdeal.main_arg3 (by decide))).trans (Cert.KernelIdeal.Gen.W6_main_arg3 m ρ c),
      (h c _ (Cert.KernelIdeal.Gen.mem_uc Cert.KernelIdeal.main_arg4 (by decide))).trans (Cert.KernelIdeal.Gen.W6_main_arg4 m ρ c),
      (h c _ (Cert.KernelIdeal.Gen.mem_uc Cert.KernelIdeal.main_arg5 (by decide))).trans (Cert.KernelIdeal.Gen.W6_main_arg5 m ρ c),
      (h c _ (Cert.KernelIdeal.Gen.mem_uc Cert.KernelIdeal.main_arg6 (by decide))).trans (Cert.KernelIdeal.Gen.W6_main_arg6 m ρ c),
      (h c _ (Cert.KernelIdeal.Gen.mem_uc Cert.KernelIdeal.main_arg7 (by decide))).trans (Cert.KernelIdeal.Gen.W6_main_arg7 m ρ c),
      (h c _ (Cert.KernelIdeal.Gen.mem_uc Cert.KernelIdeal.main_arg8 (by decide))).trans (Cert.KernelIdeal.Gen.W6_main_arg8 m ρ c),
      (h c _ (Cert.KernelIdeal.Gen.mem_uc Cert.KernelIdeal.main_arg9 (by decide))).trans (Cert.KernelIdeal.Gen.W6_main_arg9 m ρ c),
      (h c _ (Cert.KernelIdeal.Gen.mem_uc Cert.KernelIdeal.main_arg10 (by decide))).trans (Cert.KernelIdeal.Gen.W6_main_arg10 m ρ c),
      (h c _ (Cert.KernelIdeal.Gen.mem_uc Cert.KernelIdeal.main_arg11 (by decide))).trans (Cert.KernelIdeal.Gen.W6_main_arg11 m ρ c),
      (h c _ (Cert.KernelIdeal.Gen.mem_uc Cert.KernelIdeal.main_arg12 (by decide))).trans (Cert.KernelIdeal.Gen.W6_main_arg12 m ρ c),
      (h c _ (Cert.KernelIdeal.Gen.mem_uc Cert.KernelIdeal.main_arg13 (by decide))).trans (Cert.KernelIdeal.Gen.W6_main_arg13 m ρ c),
      (h c _ (Cert.KernelIdeal.Gen.mem_uc Cert.KernelIdeal.main_arg14 (by decide))).trans (Cert.KernelIdeal.Gen.W6_main_arg14 m ρ c),
      (h c _ (Cert.KernelIdeal.Gen.mem_uc Cert.KernelIdeal.main_arg15 (by decide))).trans (Cert.KernelIdeal.Gen.W6_main_arg15 m ρ c),
      (h c _ (Cert.KernelIdeal.Gen.mem_uc Cert.KernelIdeal.main_arg16 (by decide))).trans (Cert.KernelIdeal.Gen.W6_main_arg16 m ρ c),
      (h c _ (Cert.KernelIdeal.Gen.mem_uc Cert.KernelIdeal.main_arg17 (by decide))).trans (Cert.KernelIdeal.Gen.W6_main_arg17 m ρ c),
      (h c _ (Cert.KernelIdeal.Gen.mem_uc Cert.KernelIdeal.main_arg18 (by decide))).trans (Cert.KernelIdeal.Gen.W6_main_arg18 m ρ c),
      (h c _ (Cert.KernelIdeal.Gen.mem_uc Cert.KernelIdeal.main_arg19 (by decide))).trans (Cert.KernelIdeal.Gen.W6_main_arg19 m ρ c)⟩
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v135_eq]
    obtain ⟨h0, h1, h2, h3, h4, h5, h6, h7, h8, h9, h10, h11, h12, h13, h14, h15, h16, h17, h18, h19⟩ := hagree c
    rw [h1, h2, h3, h4, h5, h6, h7, h8, h9, h10, h11, h12, h13, h14, h15, h16, h17, h18, h19]
    exact (Cert.Glue.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
